-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  main_v3
-- ==== Kernel.lean ====
abbrev S32x1x512x512 : Shape := ⟨4, ![32, 1, 512, 512]⟩
abbrev S32x512x512 : Shape := ⟨3, ![32, 512, 512]⟩
abbrev S1x512x512 : Shape := ⟨3, ![1, 512, 512]⟩
abbrev S512x512 : Shape := ⟨2, ![512, 512]⟩
abbrev S1x512 : Shape := ⟨2, ![1, 512]⟩
abbrev S516x512 : Shape := ⟨2, ![516, 512]⟩
abbrev S516x1 : Shape := ⟨2, ![516, 1]⟩
abbrev S516x516 : Shape := ⟨2, ![516, 516]⟩

abbrev nBuf : Space → Nat
  | .hbm => 4
  | .vmem => 4
  | .smem => 0
  | _ => 0

abbrev bufTy : (tb : Table) → Fin (tcTables nBuf tb) → BufTy
  | .hbm, ⟨0, _⟩ => ⟨S32x1x512x512, .f32⟩
  | .hbm, ⟨1, _⟩ => ⟨S32x512x512, .f32⟩
  | .hbm, ⟨2, _⟩ => ⟨S32x512x512, .f32⟩
  | .hbm, ⟨3, _⟩ => ⟨S32x1x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x1x512x512_S32x512x512 : S32x1x512x512.ShapeCasts S32x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  slices_S512x512_o2_0_S1x512 : S512x512.Slices ![2, 0] S1x512
  slices_S512x512_o1_0_S1x512 : S512x512.Slices ![1, 0] S1x512
  slices_S512x512_o510_0_S1x512 : S512x512.Slices ![510, 0] S1x512
  slices_S512x512_o509_0_S1x512 : S512x512.Slices ![509, 0] S1x512
  concatenates_S1x512_S1x512_S512x512_S1x512_S1x512_S516x512_d0 : Shape.Concatenates [S1x512, S1x512, S512x512, S1x512, S1x512] S516x512 0
  slices_S516x512_o0_2_S516x1 : S516x512.Slices ![0, 2] S516x1
  slices_S516x512_o0_1_S516x1 : S516x512.Slices ![0, 1] S516x1
  slices_S516x512_o0_510_S516x1 : S516x512.Slices ![0, 510] S516x1
  slices_S516x512_o0_509_S516x1 : S516x512.Slices ![0, 509] S516x1
  concatenates_S516x1_S516x1_S516x512_S516x1_S516x1_S516x516_d1 : Shape.Concatenates [S516x1, S516x1, S516x512, S516x1, S516x1] S516x516 1
  slices_S516x516_o0_2_S512x512 : S516x516.Slices ![0, 2] S512x512
  slices_S516x516_o1_1_S512x512 : S516x516.Slices ![1, 1] S512x512
  slices_S516x516_o1_2_S512x512 : S516x516.Slices ![1, 2] S512x512
  slices_S516x516_o1_3_S512x512 : S516x516.Slices ![1, 3] S512x512
  slices_S516x516_o2_0_S512x512 : S516x516.Slices ![2, 0] S512x512
  slices_S516x516_o2_1_S512x512 : S516x516.Slices ![2, 1] S512x512
  slices_S516x516_o2_2_S512x512 : S516x516.Slices ![2, 2] S512x512
  slices_S516x516_o2_3_S512x512 : S516x516.Slices ![2, 3] S512x512
  slices_S516x516_o2_4_S512x512 : S516x516.Slices ![2, 4] S512x512
  slices_S516x516_o3_1_S512x512 : S516x516.Slices ![3, 1] S512x512
  slices_S516x516_o3_2_S512x512 : S516x516.Slices ![3, 2] S512x512
  slices_S516x516_o3_3_S512x512 : S516x516.Slices ![3, 3] S512x512
  slices_S516x516_o4_2_S512x512 : S516x516.Slices ![4, 2] S512x512
  shapeCasts_S512x512_S1x512x512 : S512x512.ShapeCasts S1x512x512
  shapeCasts_S32x512x512_S32x1x512x512 : S32x512x512.ShapeCasts S32x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩
abbrev S32x1x1x512 : Shape := ⟨4, ![32, 1, 1, 512]⟩
abbrev S32x1x2x512 : Shape := ⟨4, ![32, 1, 2, 512]⟩
abbrev S32x1x514x512 : Shape := ⟨4, ![32, 1, 514, 512]⟩
abbrev S32x1x516x512 : Shape := ⟨4, ![32, 1, 516, 512]⟩
abbrev S32x1x516x1 : Shape := ⟨4, ![32, 1, 516, 1]⟩
abbrev S32x1x516x2 : Shape := ⟨4, ![32, 1, 516, 2]⟩
abbrev S32x1x516x514 : Shape := ⟨4, ![32, 1, 516, 514]⟩
abbrev S32x1x516x516 : Shape := ⟨4, ![32, 1, 516, 516]⟩

abbrev nBuf : Space → Nat
  | .hbm => 216
  | .vmem => 0
  | .smem => 0
  | _ => 0

abbrev hbmTy0_0 (i : Nat) : BufTy := match i % 128 with
  | 0 => ⟨S32x1x512x512, .f32⟩
  | 1 => ⟨S_, .f32⟩
  | 2 => ⟨S32x1x512x512, .f32⟩
  | 3 => ⟨S32x1x512x512, .f32⟩
  | 4 => ⟨S_, .f32⟩
  | 5 => ⟨S32x1x512x512, .f32⟩
  | 6 => ⟨S32x1x512x512, .f32⟩
  | 7 => ⟨S_, .f32⟩
  | 8 => ⟨S_, .f32⟩
  | 9 => ⟨S_, .f32⟩
  | 10 => ⟨S32x1x512x512, .f32⟩
  | 11 => ⟨S32x1x512x512, .f32⟩
  | 12 => ⟨S_, .f32⟩
  | 13 => ⟨S32x1x512x512, .f32⟩
  | 14 => ⟨S32x1x512x512, .f32⟩
  | 15 => ⟨S_, .f32⟩
  | 16 => ⟨S32x1x512x512, .f32⟩
  | 17 => ⟨S32x1x512x512, .f32⟩
  | 18 => ⟨S_, .f32⟩
  | 19 => ⟨S32x1x512x512, .f32⟩
  | 20 => ⟨S32x1x512x512, .f32⟩
  | 21 => ⟨S_, .f32⟩
  | 22 => ⟨S32x1x512x512, .f32⟩
  | 23 => ⟨S32x1x512x512, .f32⟩
  | 24 => ⟨S32x1x512x512, .f32⟩
  | 25 => ⟨S_, .i32⟩
  | 26 => ⟨S32x1x1x512, .f32⟩
  | 27 => ⟨S32x1x2x512, .f32⟩
  | 28 => ⟨S32x1x2x512, .f32⟩
  | 29 => ⟨S32x1x514x512, .f32⟩
  | 30 => ⟨S32x1x1x512, .f32⟩
  | 31 => ⟨S32x1x2x512, .f32⟩
  | 32 => ⟨S32x1x2x512, .f32⟩
  | 33 => ⟨S32x1x516x512, .f32⟩
  | 34 => ⟨S32x1x516x1, .f32⟩
  | 35 => ⟨S32x1x516x2, .f32⟩
  | 36 => ⟨S32x1x516x2, .f32⟩
  | 37 => ⟨S32x1x516x514, .f32⟩
  | 38 => ⟨S32x1x516x1, .f32⟩
  | 39 => ⟨S32x1x516x2, .f32⟩
  | 40 => ⟨S32x1x516x2, .f32⟩
  | 41 => ⟨S32x1x516x516, .f32⟩
  | 42 => ⟨S_, .f32⟩
  | 43 => ⟨S32x1x512x512, .f32⟩
  | 44 => ⟨S_, .f32⟩
  | 45 => ⟨S32x1x512x512, .f32⟩
  | 46 => ⟨S32x1x512x512, .f32⟩
  | 47 => ⟨S32x1x512x512, .f32⟩
  | 48 => ⟨S_, .f32⟩
  | 49 => ⟨S32x1x512x512, .f32⟩
  | 50 => ⟨S32x1x512x512, .f32⟩
  | 51 => ⟨S32x1x512x512, .f32⟩
  | 52 => ⟨S32x1x512x512, .f32⟩
  | 53 => ⟨S_, .f32⟩
  | 54 => ⟨S32x1x512x512, .f32⟩
  | 55 => ⟨S32x1x512x512, .f32⟩
  | 56 => ⟨S32x1x512x512, .f32⟩
  | 57 => ⟨S32x1x512x512, .f32⟩
  | 58 => ⟨S32x1x512x512, .f32⟩
  | 59 => ⟨S32x1x512x512, .f32⟩
  | 60 => ⟨S32x1x512x512, .f32⟩
  | 61 => ⟨S_, .f32⟩
  | 62 => ⟨S32x1x512x512, .f32⟩
  | 63 => ⟨S32x1x512x512, .f32⟩
  | 64 => ⟨S32x1x512x512, .f32⟩
  | 65 => ⟨S32x1x512x512, .f32⟩
  | 66 => ⟨S_, .f32⟩
  | 67 => ⟨S32x1x512x512, .f32⟩
  | 68 => ⟨S32x1x512x512, .f32⟩
  | 69 => ⟨S32x1x512x512, .f32⟩
  | 70 => ⟨S32x1x512x512, .f32⟩
  | 71 => ⟨S32x1x512x512, .f32⟩
  | 72 => ⟨S32x1x512x512, .f32⟩
  | 73 => ⟨S32x1x512x512, .f32⟩
  | 74 => ⟨S_, .f32⟩
  | 75 => ⟨S32x1x512x512, .f32⟩
  | 76 => ⟨S32x1x512x512, .f32⟩
  | 77 => ⟨S32x1x512x512, .f32⟩
  | 78 => ⟨S32x1x512x512, .f32⟩
  | 79 => ⟨S_, .f32⟩
  | 80 => ⟨S32x1x512x512, .f32⟩
  | 81 => ⟨S32x1x512x512, .f32⟩
  | 82 => ⟨S32x1x512x512, .f32⟩
  | 83 => ⟨S32x1x512x512, .f32⟩
  | 84 => ⟨S32x1x512x512, .f32⟩
  | 85 => ⟨S32x1x512x512, .f32⟩
  | 86 => ⟨S32x1x512x512, .f32⟩
  | 87 => ⟨S_, .f32⟩
  | 88 => ⟨S32x1x512x512, .f32⟩
  | 89 => ⟨S32x1x512x512, .f32⟩
  | 90 => ⟨S32x1x512x512, .f32⟩
  | 91 => ⟨S32x1x512x512, .f32⟩
  | 92 => ⟨S_, .f32⟩
  | 93 => ⟨S32x1x512x512, .f32⟩
  | 94 => ⟨S32x1x512x512, .f32⟩
  | 95 => ⟨S32x1x512x512, .f32⟩
  | 96 => ⟨S32x1x512x512, .f32⟩
  | 97 => ⟨S32x1x512x512, .f32⟩
  | 98 => ⟨S32x1x512x512, .f32⟩
  | 99 => ⟨S32x1x512x512, .f32⟩
  | 100 => ⟨S_, .f32⟩
  | 101 => ⟨S32x1x512x512, .f32⟩
  | 102 => ⟨S32x1x512x512, .f32⟩
  | 103 => ⟨S32x1x512x512, .f32⟩
  | 104 => ⟨S32x1x512x512, .f32⟩
  | 105 => ⟨S_, .f32⟩
  | 106 => ⟨S32x1x512x512, .f32⟩
  | 107 => ⟨S32x1x512x512, .f32⟩
  | 108 => ⟨S32x1x512x512, .f32⟩
  | 109 => ⟨S32x1x512x512, .f32⟩
  | 110 => ⟨S32x1x512x512, .f32⟩
  | 111 => ⟨S32x1x512x512, .f32⟩
  | 112 => ⟨S32x1x512x512, .f32⟩
  | 113 => ⟨S_, .f32⟩
  | 114 => ⟨S32x1x512x512, .f32⟩
  | 115 => ⟨S32x1x512x512, .f32⟩
  | 116 => ⟨S32x1x512x512, .f32⟩
  | 117 => ⟨S32x1x512x512, .f32⟩
  | 118 => ⟨S_, .f32⟩
  | 119 => ⟨S32x1x512x512, .f32⟩
  | 120 => ⟨S32x1x512x512, .f32⟩
  | 121 => ⟨S32x1x512x512, .f32⟩
  | 122 => ⟨S32x1x512x512, .f32⟩
  | 123 => ⟨S32x1x512x512, .f32⟩
  | 124 => ⟨S32x1x512x512, .f32⟩
  | 125 => ⟨S32x1x512x512, .f32⟩
  | 126 => ⟨S_, .f32⟩
  | 127 => ⟨S32x1x512x512, .f32⟩
  | _ => ⟨S32x1x512x512, .f32⟩

abbrev hbmTy0_1 (i : Nat) : BufTy := match i % 128 with
  | 0 => ⟨S32x1x512x512, .f32⟩
  | 1 => ⟨S32x1x512x512, .f32⟩
  | 2 => ⟨S32x1x512x512, .f32⟩
  | 3 => ⟨S_, .f32⟩
  | 4 => ⟨S32x1x512x512, .f32⟩
  | 5 => ⟨S32x1x512x512, .f32⟩
  | 6 => ⟨S32x1x512x512, .f32⟩
  | 7 => ⟨S32x1x512x512, .f32⟩
  | 8 => ⟨S32x1x512x512, .f32⟩
  | 9 => ⟨S32x1x512x512, .f32⟩
  | 10 => ⟨S32x1x512x512, .f32⟩
  | 11 => ⟨S_, .f32⟩
  | 12 => ⟨S32x1x512x512, .f32⟩
  | 13 => ⟨S32x1x512x512, .f32⟩
  | 14 => ⟨S32x1x512x512, .f32⟩
  | 15 => ⟨S32x1x512x512, .f32⟩
  | 16 => ⟨S_, .f32⟩
  | 17 => ⟨S32x1x512x512, .f32⟩
  | 18 => ⟨S32x1x512x512, .f32⟩
  | 19 => ⟨S32x1x512x512, .f32⟩
  | 20 => ⟨S32x1x512x512, .f32⟩
  | 21 => ⟨S32x1x512x512, .f32⟩
  | 22 => ⟨S32x1x512x512, .f32⟩
  | 23 => ⟨S32x1x512x512, .f32⟩
  | 24 => ⟨S_, .f32⟩
  | 25 => ⟨S32x1x512x512, .f32⟩
  | 26 => ⟨S32x1x512x512, .f32⟩
  | 27 => ⟨S32x1x512x512, .f32⟩
  | 28 => ⟨S32x1x512x512, .f32⟩
  | 29 => ⟨S_, .f32⟩
  | 30 => ⟨S32x1x512x512, .f32⟩
  | 31 => ⟨S32x1x512x512, .f32⟩
  | 32 => ⟨S32x1x512x512, .f32⟩
  | 33 => ⟨S32x1x512x512, .f32⟩
  | 34 => ⟨S32x1x512x512, .f32⟩
  | 35 => ⟨S32x1x512x512, .f32⟩
  | 36 => ⟨S32x1x512x512, .f32⟩
  | 37 => ⟨S_, .f32⟩
  | 38 => ⟨S32x1x512x512, .f32⟩
  | 39 => ⟨S32x1x512x512, .f32⟩
  | 40 => ⟨S32x1x512x512, .f32⟩
  | 41 => ⟨S32x1x512x512, .f32⟩
  | 42 => ⟨S_, .f32⟩
  | 43 => ⟨S32x1x512x512, .f32⟩
  | 44 => ⟨S32x1x512x512, .f32⟩
  | 45 => ⟨S32x1x512x512, .f32⟩
  | 46 => ⟨S32x1x512x512, .f32⟩
  | 47 => ⟨S32x1x512x512, .f32⟩
  | 48 => ⟨S32x1x512x512, .f32⟩
  | 49 => ⟨S32x1x512x512, .f32⟩
  | 50 => ⟨S_, .f32⟩
  | 51 => ⟨S32x1x512x512, .f32⟩
  | 52 => ⟨S32x1x512x512, .f32⟩
  | 53 => ⟨S32x1x512x512, .f32⟩
  | 54 => ⟨S32x1x512x512, .f32⟩
  | 55 => ⟨S_, .f32⟩
  | 56 => ⟨S32x1x512x512, .f32⟩
  | 57 => ⟨S32x1x512x512, .f32⟩
  | 58 => ⟨S32x1x512x512, .f32⟩
  | 59 => ⟨S32x1x512x512, .f32⟩
  | 60 => ⟨S32x1x512x512, .f32⟩
  | 61 => ⟨S32x1x512x512, .f32⟩
  | 62 => ⟨S32x1x512x512, .f32⟩
  | 63 => ⟨S_, .f32⟩
  | 64 => ⟨S32x1x512x512, .f32⟩
  | 65 => ⟨S32x1x512x512, .f32⟩
  | 66 => ⟨S32x1x512x512, .f32⟩
  | 67 => ⟨S32x1x512x512, .f32⟩
  | 68 => ⟨S_, .f32⟩
  | 69 => ⟨S32x1x512x512, .f32⟩
  | 70 => ⟨S32x1x512x512, .f32⟩
  | 71 => ⟨S32x1x512x512, .f32⟩
  | 72 => ⟨S32x1x512x512, .f32⟩
  | 73 => ⟨S32x1x512x512, .f32⟩
  | 74 => ⟨S32x1x512x512, .f32⟩
  | 75 => ⟨S32x1x512x512, .f32⟩
  | 76 => ⟨S_, .f32⟩
  | 77 => ⟨S32x1x512x512, .f32⟩
  | 78 => ⟨S32x1x512x512, .f32⟩
  | 79 => ⟨S32x1x512x512, .f32⟩
  | 80 => ⟨S32x1x512x512, .f32⟩
  | 81 => ⟨S_, .f32⟩
  | 82 => ⟨S32x1x512x512, .f32⟩
  | 83 => ⟨S32x1x512x512, .f32⟩
  | 84 => ⟨S32x1x512x512, .f32⟩
  | 85 => ⟨S32x1x512x512, .f32⟩
  | 86 => ⟨S32x1x512x512, .f32⟩
  | 87 => ⟨S32x1x512x512, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v12 : Ref sig .tc := ⟨.hbm, 41, rfl⟩
abbrev main_cst_6 : Ref sig .tc := ⟨.hbm, 42, rfl⟩
abbrev main_v13 : Ref sig .tc := ⟨.hbm, 43, rfl⟩
abbrev main_cst_7 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_8 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_9 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_10 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_11 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_12 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_13 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_15 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_16 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_26 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_27 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_28 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_29 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_30 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_31 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_32 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_33 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  slices_S32x1x512x512_S32x1x1x512_0_0_0_0 : S32x1x512x512.Slices ![0, 0, 0, 0] S32x1x1x512
  slices_S32x1x512x512_S32x1x2x512_0_0_1_0 : S32x1x512x512.Slices ![0, 0, 1, 0] S32x1x2x512
  concatenates_S32x1x2x512_S32x1x512x512_S32x1x514x512_d2 : Shape.Concatenates [S32x1x2x512, S32x1x512x512] S32x1x514x512 2
  slices_S32x1x514x512_S32x1x1x512_0_0_513_0 : S32x1x514x512.Slices ![0, 0, 513, 0] S32x1x1x512
  slices_S32x1x514x512_S32x1x2x512_0_0_511_0 : S32x1x514x512.Slices ![0, 0, 511, 0] S32x1x2x512
  concatenates_S32x1x514x512_S32x1x2x512_S32x1x516x512_d2 : Shape.Concatenates [S32x1x514x512, S32x1x2x512] S32x1x516x512 2
  slices_S32x1x516x512_S32x1x516x1_0_0_0_0 : S32x1x516x512.Slices ![0, 0, 0, 0] S32x1x516x1
  slices_S32x1x516x512_S32x1x516x2_0_0_0_1 : S32x1x516x512.Slices ![0, 0, 0, 1] S32x1x516x2
  concatenates_S32x1x516x2_S32x1x516x512_S32x1x516x514_d3 : Shape.Concatenates [S32x1x516x2, S32x1x516x512] S32x1x516x514 3
  slices_S32x1x516x514_S32x1x516x1_0_0_0_513 : S32x1x516x514.Slices ![0, 0, 0, 513] S32x1x516x1
  slices_S32x1x516x514_S32x1x516x2_0_0_0_511 : S32x1x516x514.Slices ![0, 0, 0, 511] S32x1x516x2
  concatenates_S32x1x516x514_S32x1x516x2_S32x1x516x516_d3 : Shape.Concatenates [S32x1x516x514, S32x1x516x2] S32x1x516x516 3
  slices_S32x1x516x516_S32x1x512x512_0_0_0_2 : S32x1x516x516.Slices ![0, 0, 0, 2] S32x1x512x512
  slices_S32x1x516x516_S32x1x512x512_0_0_1_1 : S32x1x516x516.Slices ![0, 0, 1, 1] S32x1x512x512
  slices_S32x1x516x516_S32x1x512x512_0_0_1_2 : S32x1x516x516.Slices ![0, 0, 1, 2] S32x1x512x512
  slices_S32x1x516x516_S32x1x512x512_0_0_1_3 : S32x1x516x516.Slices ![0, 0, 1, 3] S32x1x512x512
  slices_S32x1x516x516_S32x1x512x512_0_0_2_0 : S32x1x516x516.Slices ![0, 0, 2, 0] S32x1x512x512
  slices_S32x1x516x516_S32x1x512x512_0_0_2_1 : S32x1x516x516.Slices ![0, 0, 2, 1] S32x1x512x512
  slices_S32x1x516x516_S32x1x512x512_0_0_2_2 : S32x1x516x516.Slices ![0, 0, 2, 2] S32x1x512x512
  slices_S32x1x516x516_S32x1x512x512_0_0_2_3 : S32x1x516x516.Slices ![0, 0, 2, 3] S32x1x512x512
  slices_S32x1x516x516_S32x1x512x512_0_0_2_4 : S32x1x516x516.Slices ![0, 0, 2, 4] S32x1x512x512
  slices_S32x1x516x516_S32x1x512x512_0_0_3_1 : S32x1x516x516.Slices ![0, 0, 3, 1] S32x1x512x512
  slices_S32x1x516x516_S32x1x512x512_0_0_3_2 : S32x1x516x516.Slices ![0, 0, 3, 2] S32x1x512x512
  slices_S32x1x516x516_S32x1x512x512_0_0_3_3 : S32x1x516x516.Slices ![0, 0, 3, 3] S32x1x512x512
  slices_S32x1x516x516_S32x1x512x512_0_0_4_2 : S32x1x516x516.Slices ![0, 0, 4, 2] S32x1x512x512

variable [Facts₀]

class Facts : Prop extends Facts₀ where

variable [Facts]
-- ==== Proof.KSpec.lean ====
/-
  The kernel program's result as ONE function of its argument array: grid point `b` is handed image `b` of
  the batch as its block, and entry (b, 0, p, q) of the result is entry (0, p, q) of what the body stores there.
-/
import proofs.«157411_j11484742549760_2_alg».proof.Proof.Gen.KernelIdeal.Frame
import Idealize.ShloMosaic.Lib.ValueIdx

noncomputable section

namespace Cert.KernelIdeal.KSpec

open Cert.KernelIdeal Cert.KernelIdeal.Gen Idealize.ShloMosaic Idealize.ShloMosaic.ValueIdx

/-- Image `b` of the batch, as the one block the body is given at grid point `b`. -/
def image (x : FVec Ideal S32x1x512x512 .f32) (b : Fin 32) : Vec Ideal S1x512x512 .f32 :=
  fun y => x (ix4 b (0 : Fin 1) (y 1) (y 2))

/-- The program's result array: image by image, what the body stores. -/
def result (x : FVec Ideal S32x1x512x512 .f32) : FVec Ideal S32x1x512x512 .f32 :=
  fun i => out0_1 (F := Ideal) (image x (i 0)) (ix3 (0 : Fin 1) (i 2) (i 3))

end Cert.KernelIdeal.KSpec

end
-- ==== Proof.KRun.lean ====
/-
  The idealized kernel program's run, read as one function of its argument array.

  The program reshapes the argument [32,1,512,512] to [32,512,512], runs the body once per image over the grid of
  32 points (point b is handed image b as its block and writes block b of the result), and reshapes the result back
  to [32,1,512,512]. Everything here is layout: the body's stored block stays an opaque function of the input block.
-/
import proofs.«157411_j11484742549760_2_alg».proof.Proof.Gen.KernelIdeal.Frame
import proofs.«157411_j11484742549760_2_alg».proof.Proof.KSpec
import Idealize.ShloMosaic.Lib.Pipeline.Value
import Idealize.ShloMosaic.Lib.ValueIdx
import Idealize.ShloMosaic.Lib.Tactic

set_option maxRecDepth 16384

noncomputable section

namespace Cert.KernelIdeal.KRun

open Cert.KernelIdeal Cert.KernelIdeal.Gen Cert.KernelIdeal.KSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array the input window reads is the reshape of the argument. -/
theorem v0_eq (c : Dev nD) :
    (V m c main_v0 : S32x512x512.Idx → Elt Ideal .f32)
      = shapeCast S32x512x512 (m ((c : Thread nD τ).loc main_arg0) : S32x1x512x512.Idx → Elt Ideal .f32) shapeCasts_S32x1x512x512_S32x512x512 := by
  show StableHlo.after hostOps0 (fun b => m (c, b)) (Proc.devRef .tc main_v0) = _
  after_results
  rfl

/-- Entry (b, p, q) of it is entry (b, 0, p, q) of the argument. -/
theorem v0_apply (c : Dev nD) (b : Fin 32) (p q : Fin 512) :
    (V m c main_v0 : S32x512x512.Idx → Elt Ideal .f32) (ix3 b p q)
      = (m ((c : Thread nD τ).loc main_arg0) : S32x1x512x512.Idx → Elt Ideal .f32) (ix4 b (0 : Fin 1) p q) := by
  rw [v0_eq]
  refine shapeCast_apply (s := S32x1x512x512) (t := S32x512x512) _ _ _ _ ?_
  rw [Shape.rowMajor_val_four, Shape.rowMajor_val_three]
  show (((b.val * 1 + 0) * 512 + p.val) * 512 + q.val) = ((b.val * 512 + p.val) * 512 + q.val)
  omega

/-- The printed index maps over the grid: point t's blocks, of both windows, start at image t, row 0, column 0. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A grid point as the number of the image it handles. -/
abbrev img (t : Fin cfg0.N) : Fin 32 := Fin.cast N_0 t

/-- Input block t at (z, p, q) is the argument at (t, 0, p, q). -/
theorem iblk_apply (c : Dev nD) (t : Fin cfg0.N) (z : Fin 1) (p q : Fin 512) :
    (iblk m c 0 t : Vec Ideal S1x512x512 .f32) (ix3 z p q)
      = (m ((c : Thread nD τ).loc main_arg0) : S32x1x512x512.Idx → Elt Ideal .f32) (ix4 (img t) (0 : Fin 1) p q) := by
  obtain ⟨e0, e1, e2, -⟩ := idx_facts t
  unfold iblk
  rw [View.read_apply]
  show V m c main_v0 _ = _
  have hemb : (((cfg0.win 0).blk t).view.emb (ix3 z p q) : S32x512x512.Idx) = ix3 (img t) p q := by
    funext a; apply Fin.ext
    match a with
    | ⟨0, _⟩ => show win0_0.index t (0 : Fin 3) * 1 + 1 * z.val = t.val; have hz : z.val < 1 := z.isLt; omega
    | ⟨1, _⟩ => show win0_0.index t (1 : Fin 3) * 512 + 1 * p.val = p.val; omega
    | ⟨2, _⟩ => show win0_0.index t (2 : Fin 3) * 512 + 1 * q.val = q.val; omega
  rw [hemb]
  exact v0_apply m c (img t) p q

/-- Input block t is image t of the argument. -/
theorem iblk_eq (c : Dev nD) (t : Fin cfg0.N) :
    (iblk m c 0 t : Vec Ideal S1x512x512 .f32) = image (m ((c : Thread nD τ).loc main_arg0)) (img t) := by
  funext y
  obtain ⟨z, p, q, rfl⟩ : ∃ (z : Fin 1) (p q : Fin 512), y = ix3 z p q := ⟨y 0, y 1, y 2, eq_ix3 y⟩
  exact iblk_apply m c t z p q

-- The block the body stores stays an opaque function of the input block throughout.
attribute [local irreducible] out0_1

/-- What the output window's array ends holding: at (b, p, q), entry (0, p, q) of what the body stores for image b. -/
def G (x : FVec Ideal S32x1x512x512 .f32) : S32x512x512.Idx → Elt Ideal .f32 :=
  fun i => out0_1 (F := Ideal) (image x (i 0)) (ix3 (0 : Fin 1) (i 1) (i 2))

/-- What point t writes back is block t of `G` of the argument. -/
theorem flushed_eq (c : Dev nD) (t : Fin cfg0.N) :
    (dats m 0 c).flushed 1 t = ((cfg0.win 1).blk t).view.read (Elt Ideal) (G (m ((c : Thread nD τ).loc main_arg0))) := by
  obtain ⟨-, -, -, e0, e1, e2⟩ := idx_facts t
  show (cfg0.win 1).cut (grid0.coords t) ((dats m 0 c).after 1 t) = _
  rw [after0_1, iblk_eq]
  funext j
  obtain ⟨z, p, q, rfl⟩ : ∃ (z : Fin 1) (p q : Fin 512), j = ix3 z p q := ⟨j 0, j 1, j 2, eq_ix3 j⟩
  rw [View.read_apply]
  have hemb : (((cfg0.win 1).blk t).view.emb (ix3 z p q) : S32x512x512.Idx) = ix3 (img t) p q := by
    funext a; apply Fin.ext
    match a with
    | ⟨0, _⟩ => show win0_1.index t (0 : Fin 3) * 1 + 1 * z.val = t.val; have hz : z.val < 1 := z.isLt; omega
    | ⟨1, _⟩ => show win0_1.index t (1 : Fin 3) * 512 + 1 * p.val = p.val; omega
    | ⟨2, _⟩ => show win0_1.index t (2 : Fin 3) * 512 + 1 * q.val = q.val; omega
  rw [hemb]
  have hz : z = 0 := Fin.ext (by have := z.isLt; omega)
  subst hz
  rfl

/-- An index of the array is in point t's block iff each coordinate is in the block's range on its axis. -/
theorem mem_blk (t : Fin cfg0.N) (i : S32x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

/-- Every index of the array is in some point's block: (b, p, q) is in point b's. -/
theorem cover (i : S32x512x512.Idx) : ∃ t : Fin cfg0.N, (cfg0.win 1).flush t = true ∧ i ∈ ((cfg0.win 1).blk t).view.set := by
  obtain ⟨b, p, q, rfl⟩ : ∃ (b : Fin 32) (p q : Fin 512), i = ix3 b p q := ⟨i 0, i 1, i 2, eq_ix3 i⟩
  refine ⟨Fin.cast N_0.symm b, flush0_1 _, ?_⟩
  obtain ⟨-, -, -, e0, e1, e2⟩ := idx_facts (Fin.cast N_0.symm b)
  rw [mem_blk]
  intro a
  match a with
  | ⟨0, _⟩ => show win0_1.index (Fin.cast N_0.symm b) (0 : Fin 3) * 1 ≤ b.val ∧ b.val < win0_1.index (Fin.cast N_0.symm b) (0 : Fin 3) * 1 + 1; rw [e0]; show b.val * 1 ≤ b.val ∧ b.val < b.val * 1 + 1; omega
  | ⟨1, _⟩ => show win0_1.index (Fin.cast N_0.symm b) (1 : Fin 3) * 512 ≤ p.val ∧ p.val < win0_1.index (Fin.cast N_0.symm b) (1 : Fin 3) * 512 + 512; have := p.isLt; omega
  | ⟨2, _⟩ => show win0_1.index (Fin.cast N_0.symm b) (2 : Fin 3) * 512 ≤ q.val ∧ q.val < win0_1.index (Fin.cast N_0.symm b) (2 : Fin 3) * 512 + 512; have := q.isLt; omega

/-- The output window's array after the run is `G` of the argument. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) cover

/-- The result array after the host lines that follow the region: the reshape of the output window's array, which
    at (b, 0, p, q) is `G` at (b, p, q), the specified result. -/
theorem tail_eq (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c)]
  funext i
  obtain ⟨b, z, p, q, rfl⟩ : ∃ (b : Fin 32) (z : Fin 1) (p q : Fin 512), i = ix4 b z p q := ⟨i 0, i 1, i 2, i 3, eq_ix4 i⟩
  refine (shapeCast_apply (s := S32x512x512) (t := S32x1x512x512) _ _ (ix4 b z p q) (ix3 b p q) ?_).trans ?_
  · rw [Shape.rowMajor_val_four, Shape.rowMajor_val_three]
    show ((b.val * 512 + p.val) * 512 + q.val) = (((b.val * 1 + z.val) * 512 + p.val) * 512 + q.val)
    have hz : z.val < 1 := z.isLt
    omega
  · rfl

/-- The idealized kernel program's run: the result array ends at the specified function of the argument array, the
    argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.KernelIdeal.KSpec.result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.KRun

end
-- ==== Proof.RefOps.lean ====
/-
  The reference program's host operations as lists, in the program's order, the outlined functions' operations
  at their call sites over the calls' buffer records, cut where the computation's stages end: the blend, the halo,
  the two zeros, one list per tap of the radius-2 disc, the final quotient. Nothing is argued here.
-/
import proofs.«157411_j11484742549760_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The blend: (x + 1) / 2 clipped to [1e-6, 1] (the clip's six operations at its call), its power 1.5, and 0.6 c + 0.4 c^1.5. -/
def opsBlend : List (HloOp τ sig (Elt F)) :=
  [ StableHlo.nullary main_cst (constant S_ .f32 0x3F800000#32),
    StableHlo.unary main_cst main_v0 (broadcastInDim S32x1x512x512 ![] bcast_S_S32x1x512x512 : (⟨S_, .f32⟩ : BufTy).Contents (Elt F) → (⟨S32x1x512x512, .f32⟩ : BufTy).Contents (Elt F)),
    StableHlo.binary main_arg0 main_v0 main_v1 (addf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_0 (constant S_ .f32 0x40000000#32),
    StableHlo.unary main_cst_0 main_v2 (broadcastInDim S32x1x512x512 ![] bcast_S_S32x1x512x512 : (⟨S_, .f32⟩ : BufTy).Contents (Elt F) → (⟨S32x1x512x512, .f32⟩ : BufTy).Contents (Elt F)),
    StableHlo.binary main_v1 main_v2 main_v3 (Host.divf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_1 (constant S_ .f32 0x358637BD#32),
    StableHlo.nullary main_cst_2 (constant S_ .f32 0x3F800000#32),
    StableHlo.TRef.unary (.of main_cst_1 : StableHlo.TRef sig ⟨S_, .f32⟩) main_call0.v0 id,
    StableHlo.TRef.unary main_call0.v0 main_call0.v1 (broadcastInDim S32x1x512x512 ![] bcast_S_S32x1x512x512),
    StableHlo.TRef.binary main_call0.v1 (.of main_v3 : StableHlo.TRef sig ⟨S32x1x512x512, .f32⟩) main_call0.v2 maximumf,
    StableHlo.TRef.unary (.of main_cst_2 : StableHlo.TRef sig ⟨S_, .f32⟩) main_call0.v3 id,
    StableHlo.TRef.unary main_call0.v3 main_call0.v4 (broadcastInDim S32x1x512x512 ![] bcast_S_S32x1x512x512),
    StableHlo.TRef.binary main_call0.v4 main_call0.v2 main_call0.v5 minimumf,
    StableHlo.nullary main_cst_3 (constant S_ .f32 0x3FC00000#32),
    StableHlo.unary main_cst_3 main_v5 (broadcastInDim S32x1x512x512 ![] bcast_S_S32x1x512x512 : (⟨S_, .f32⟩ : BufTy).Contents (Elt F) → (⟨S32x1x512x512, .f32⟩ : BufTy).Contents (Elt F)),
    StableHlo.binary main_v4 main_v5 main_v6 (Host.powf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_4 (constant S_ .f32 0x3F19999A#32),
    StableHlo.unary main_cst_4 main_v7 (broadcastInDim S32x1x512x512 ![] bcast_S_S32x1x512x512 : (⟨S_, .f32⟩ : BufTy).Contents (Elt F) → (⟨S32x1x512x512, .f32⟩ : BufTy).Contents (Elt F)),
    StableHlo.binary main_v7 main_v4 main_v8 (mulf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_5 (constant S_ .f32 0x3ECCCCCD#32),
    StableHlo.unary main_cst_5 main_v9 (broadcastInDim S32x1x512x512 ![] bcast_S_S32x1x512x512 : (⟨S_, .f32⟩ : BufTy).Contents (Elt F) → (⟨S32x1x512x512, .f32⟩ : BufTy).Contents (Elt F)),
    StableHlo.binary main_v9 main_v6 main_v10 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v8 main_v10 main_v11 (addf : (⟨S32x1x512x512, .f32⟩ : BufTy).Contents (Elt F) → (⟨S32x1x512x512, .f32⟩ : BufTy).Contents (Elt F) → (⟨S32x1x512x512, .f32⟩ : BufTy).Contents (Elt F)) ]

/-- The halo, first of four steps: after the padding value 0 (not read), rows 2, 1 of the blend reversed and put in front of it. -/
def opsHaloA : List (HloOp τ sig (Elt F)) :=
  [ StableHlo.nullary main_c (constantI S_ 32 0#32),
    StableHlo.TRef.unary (.of main_v11 : StableHlo.TRef sig ⟨S32x1x512x512, .f32⟩) main_call1.v0 (extractStridedSlice S32x1x1x512 ![0, 0, 0, 0] · slices_S32x1x512x512_S32x1x1x512_0_0_0_0),
    StableHlo.TRef.unary (.of main_v11 : StableHlo.TRef sig ⟨S32x1x512x512, .f32⟩) main_call1.v1 (extractStridedSlice S32x1x2x512 ![0, 0, 1, 0] · slices_S32x1x512x512_S32x1x2x512_0_0_1_0),
    StableHlo.TRef.unary main_call1.v1 main_call1.call0.v0 (Host.reverse [2]),
    StableHlo.TRef.binary main_call1.call0.v0 (.of main_v11 : StableHlo.TRef sig ⟨S32x1x512x512, .f32⟩) main_call1.v3 (fun a b => concatenate S32x1x514x512 2 [⟨S32x1x2x512, a⟩, ⟨S32x1x512x512, b⟩] concatenates_S32x1x2x512_S32x1x512x512_S32x1x514x512_d2) ]

/-- The halo, second step: the last two rows but one, reversed, put behind. -/
def opsHaloB : List (HloOp τ sig (Elt F)) :=
  [ StableHlo.TRef.unary main_call1.v3 main_call1.v4 (extractStridedSlice S32x1x1x512 ![0, 0, 513, 0] · slices_S32x1x514x512_S32x1x1x512_0_0_513_0),
    StableHlo.TRef.unary main_call1.v3 main_call1.v5 (extractStridedSlice S32x1x2x512 ![0, 0, 511, 0] · slices_S32x1x514x512_S32x1x2x512_0_0_511_0),
    StableHlo.TRef.unary main_call1.v5 main_call1.call1.v0 (Host.reverse [2]),
    StableHlo.TRef.binary main_call1.v3 main_call1.call1.v0 main_call1.v7 (fun a b => concatenate S32x1x516x512 2 [⟨S32x1x514x512, a⟩, ⟨S32x1x2x512, b⟩] concatenates_S32x1x514x512_S32x1x2x512_S32x1x516x512_d2) ]

/-- The halo, third step: columns 2, 1 reversed and put in front. -/
def opsHaloC : List (HloOp τ sig (Elt F)) :=
  [ StableHlo.TRef.unary main_call1.v7 main_call1.v8 (extractStridedSlice S32x1x516x1 ![0, 0, 0, 0] · slices_S32x1x516x512_S32x1x516x1_0_0_0_0),
    StableHlo.TRef.unary main_call1.v7 main_call1.v9 (extractStridedSlice S32x1x516x2 ![0, 0, 0, 1] · slices_S32x1x516x512_S32x1x516x2_0_0_0_1),
    StableHlo.TRef.unary main_call1.v9 main_call1.call2.v0 (Host.reverse [3]),
    StableHlo.TRef.binary main_call1.call2.v0 main_call1.v7 main_call1.v11 (fun a b => concatenate S32x1x516x514 3 [⟨S32x1x516x2, a⟩, ⟨S32x1x516x512, b⟩] concatenates_S32x1x516x2_S32x1x516x512_S32x1x516x514_d3) ]

/-- The halo, last step: the last two columns but one, reversed, put behind. -/
def opsHaloD : List (HloOp τ sig (Elt F)) :=
  [ StableHlo.TRef.unary main_call1.v11 main_call1.v12 (extractStridedSlice S32x1x516x1 ![0, 0, 0, 513] · slices_S32x1x516x514_S32x1x516x1_0_0_0_513),
    StableHlo.TRef.unary main_call1.v11 main_call1.v13 (extractStridedSlice S32x1x516x2 ![0, 0, 0, 511] · slices_S32x1x516x514_S32x1x516x2_0_0_0_511),
    StableHlo.TRef.unary main_call1.v13 main_call1.call3.v0 (Host.reverse [3]),
    StableHlo.TRef.binary main_call1.v11 main_call1.call3.v0 main_call1.v15 (fun a b => concatenate S32x1x516x516 3 [⟨S32x1x516x514, a⟩, ⟨S32x1x516x2, b⟩] concatenates_S32x1x516x514_S32x1x516x2_S32x1x516x516_d3) ]

/-- The two zero images the sums start from. -/
def opsZero : List (HloOp τ sig (Elt F)) :=
  [ StableHlo.nullary main_cst_6 (constant S_ .f32 0x00000000#32),
    StableHlo.unary main_cst_6 main_v13 (broadcastInDim S32x1x512x512 ![] bcast_S_S32x1x512x512 : (⟨S_, .f32⟩ : BufTy).Contents (Elt F) → (⟨S32x1x512x512, .f32⟩ : BufTy).Contents (Elt F)),
    StableHlo.nullary main_cst_7 (constant S_ .f32 0x00000000#32),
    StableHlo.unary main_cst_7 main_v14 (broadcastInDim S32x1x512x512 ![] bcast_S_S32x1x512x512 : (⟨S_, .f32⟩ : BufTy).Contents (Elt F) → (⟨S32x1x512x512, .f32⟩ : BufTy).Contents (Elt F)) ]

/-- Tap 1 of thirteen: the shifted window of the halo image, its colour difference to the blend, the weight, and the two sums advanced. -/
def opsTap1 : List (HloOp τ sig (Elt F)) :=
  [ StableHlo.unary main_v12 main_v15 ((extractStridedSlice S32x1x512x512 ![0, 0, 0, 2] · slices_S32x1x516x516_S32x1x512x512_0_0_0_2) : (⟨S32x1x516x516, .f32⟩ : BufTy).Contents (Elt F) → (⟨S32x1x512x512, .f32⟩ : BufTy).Contents (Elt F)),
    StableHlo.binary main_v15 main_v11 main_v16 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_8 (constant S_ .f32 0xC3480000#32),
    StableHlo.unary main_cst_8 main_v17 (broadcastInDim S32x1x512x512 ![] bcast_S_S32x1x512x512 : (⟨S_, .f32⟩ : BufTy).Contents (Elt F) → (⟨S32x1x512x512, .f32⟩ : BufTy).Contents (Elt F)),
    StableHlo.binary main_v17 main_v16 main_v18 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v18 main_v16 main_v19 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v19 main_v20 (Host.exp : (⟨S32x1x512x512, .f32⟩ : BufTy).Contents (Elt F) → (⟨S32x1x512x512, .f32⟩ : BufTy).Contents (Elt F)),
    StableHlo.nullary main_cst_9 (constant S_ .f32 0x3F7FCB98#32),
    StableHlo.unary main_cst_9 main_v21 (broadcastInDim S32x1x512x512 ![] bcast_S_S32x1x512x512 : (⟨S_, .f32⟩ : BufTy).Contents (Elt F) → (⟨S32x1x512x512, .f32⟩ : BufTy).Contents (Elt F)),
    StableHlo.binary main_v21 main_v20 main_v22 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v22 main_v15 main_v23 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v13 main_v23 main_v24 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v14 main_v22 main_v25 (addf : (⟨S32x1x512x512, .f32⟩ : BufTy).Contents (Elt F) → (⟨S32x1x512x512, .f32⟩ : BufTy).Contents (Elt F) → (⟨S32x1x512x512, .f32⟩ : BufTy).Contents (Elt F)) ]

/-- Tap 2 of thirteen: the shifted window of the halo image, its colour difference to the blend, the weight, and the two sums advanced. -/
def opsTap2 : List (HloOp τ sig (Elt F)) :=
  [ StableHlo.unary main_v12 main_v26 ((extractStridedSlice S32x1x512x512 ![0, 0, 1, 1] · slices_S32x1x516x516_S32x1x512x512_0_0_1_1) : (⟨S32x1x516x516, .f32⟩ : BufTy).Contents (Elt F) → (⟨S32x1x512x512, .f32⟩ : BufTy).Contents (Elt F)),
    StableHlo.binary main_v26 main_v11 main_v27 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_10 (constant S_ .f32 0xC3480000#32),
    StableHlo.unary main_cst_10 main_v28 (broadcastInDim S32x1x512x512 ![] bcast_S_S32x1x512x512 : (⟨S_, .f32⟩ : BufTy).Contents (Elt F) → (⟨S32x1x512x512, .f32⟩ : BufTy).Contents (Elt F)),
    StableHlo.binary main_v28 main_v27 main_v29 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v29 main_v27 main_v30 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v30 main_v31 (Host.exp : (⟨S32x1x512x512, .f32⟩ : BufTy).Contents (Elt F) → (⟨S32x1x512x512, .f32⟩ : BufTy).Contents (Elt F)),
    StableHlo.nullary main_cst_11 (constant S_ .f32 0x3F7FE5CA#32),
    StableHlo.unary main_cst_11 main_v32 (broadcastInDim S32x1x512x512 ![] bcast_S_S32x1x512x512 : (⟨S_, .f32⟩ : BufTy).Contents (Elt F) → (⟨S32x1x512x512, .f32⟩ : BufTy).Contents (Elt F)),
    StableHlo.binary main_v32 main_v31 main_v33 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v33 main_v26 main_v34 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v24 main_v34 main_v35 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v25 main_v33 main_v36 (addf : (⟨S32x1x512x512, .f32⟩ : BufTy).Contents (Elt F) → (⟨S32x1x512x512, .f32⟩ : BufTy).Contents (Elt F) → (⟨S32x1x512x512, .f32⟩ : BufTy).Contents (Elt F)) ]

/-- Tap 3 of thirteen: the shifted window of the halo image, its colour difference to the blend, the weight, and the two sums advanced. -/
def opsTap3 : List (HloOp τ sig (Elt F)) :=
  [ StableHlo.unary main_v12 main_v37 ((extractStridedSlice S32x1x512x512 ![0, 0, 1, 2] · slices_S32x1x516x516_S32x1x512x512_0_0_1_2) : (⟨S32x1x516x516, .f32⟩ : BufTy).Contents (Elt F) → (⟨S32x1x512x512, .f32⟩ : BufTy).Contents (Elt F)),
    StableHlo.binary main_v37 main_v11 main_v38 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_12 (constant S_ .f32 0xC3480000#32),
    StableHlo.unary main_cst_12 main_v39 (broadcastInDim S32x1x512x512 ![] bcast_S_S32x1x512x512 : (⟨S_, .f32⟩ : BufTy).Contents (Elt F) → (⟨S32x1x512x512, .f32⟩ : BufTy).Contents (Elt F)),
    StableHlo.binary main_v39 main_v38 main_v40 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v40 main_v38 main_v41 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v41 main_v42 (Host.exp : (⟨S32x1x512x512, .f32⟩ : BufTy).Contents (Elt F) → (⟨S32x1x512x512, .f32⟩ : BufTy).Contents (Elt F)),
    StableHlo.nullary main_cst_13 (constant S_ .f32 0x3F7FF2E5#32),
    StableHlo.unary main_cst_13 main_v43 (broadcastInDim S32x1x512x512 ![] bcast_S_S32x1x512x512 : (⟨S_, .f32⟩ : BufTy).Contents (Elt F) → (⟨S32x1x512x512, .f32⟩ : BufTy).Contents (Elt F)),
    StableHlo.binary main_v43 main_v42 main_v44 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v44 main_v37 main_v45 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v35 main_v45 main_v46 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v36 main_v44 main_v47 (addf : (⟨S32x1x512x512, .f32⟩ : BufTy).Contents (Elt F) → (⟨S32x1x512x512, .f32⟩ : BufTy).Contents (Elt F) → (⟨S32x1x512x512, .f32⟩ : BufTy).Contents (Elt F)) ]

/-- Tap 4 of thirteen: the shifted window of the halo image, its colour difference to the blend, the weight, and the two sums advanced. -/
def opsTap4 : List (HloOp τ sig (Elt F)) :=
  [ StableHlo.unary main_v12 main_v48 ((extractStridedSlice S32x1x512x512 ![0, 0, 1, 3] · slices_S32x1x516x516_S32x1x512x512_0_0_1_3) : (⟨S32x1x516x516, .f32⟩ : BufTy).Contents (Elt F) → (⟨S32x1x512x512, .f32⟩ : BufTy).Contents (Elt F)),
    StableHlo.binary main_v48 main_v11 main_v49 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_14 (constant S_ .f32 0xC3480000#32),
    StableHlo.unary main_cst_14 main_v50 (broadcastInDim S32x1x512x512 ![] bcast_S_S32x1x512x512 : (⟨S_, .f32⟩ : BufTy).Contents (Elt F) → (⟨S32x1x512x512, .f32⟩ : BufTy).Contents (Elt F)),
    StableHlo.binary main_v50 main_v49 main_v51 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v51 main_v49 main_v52 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v52 main_v53 (Host.exp : (⟨S32x1x512x512, .f32⟩ : BufTy).Contents (Elt F) → (⟨S32x1x512x512, .f32⟩ : BufTy).Contents (Elt F)),
    StableHlo.nullary main_cst_15 (constant S_ .f32 0x3F7FE5CA#32),
    StableHlo.unary main_cst_15 main_v54 (broadcastInDim S32x1x512x512 ![] bcast_S_S32x1x512x512 : (⟨S_, .f32⟩ : BufTy).Contents (Elt F) → (⟨S32x1x512x512, .f32⟩ : BufTy).Contents (Elt F)),
    StableHlo.binary main_v54 main_v53 main_v55 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v55 main_v48 main_v56 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v46 main_v56 main_v57 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v47 main_v55 main_v58 (addf : (⟨S32x1x512x512, .f32⟩ : BufTy).Contents (Elt F) → (⟨S32x1x512x512, .f32⟩ : BufTy).Contents (Elt F) → (⟨S32x1x512x512, .f32⟩ : BufTy).Contents (Elt F)) ]

/-- Tap 5 of thirteen: the shifted window of the halo image, its colour difference to the blend, the weight, and the two sums advanced. -/
def opsTap5 : List (HloOp τ sig (Elt F)) :=
  [ StableHlo.unary main_v12 main_v59 ((extractStridedSlice S32x1x512x512 ![0, 0, 2, 0] · slices_S32x1x516x516_S32x1x512x512_0_0_2_0) : (⟨S32x1x516x516, .f32⟩ : BufTy).Contents (Elt F) → (⟨S32x1x512x512, .f32⟩ : BufTy).Contents (Elt F)),
    StableHlo.binary main_v59 main_v11 main_v60 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_16 (constant S_ .f32 0xC3480000#32),
    StableHlo.unary main_cst_16 main_v61 (broadcastInDim S32x1x512x512 ![] bcast_S_S32x1x512x512 : (⟨S_, .f32⟩ : BufTy).Contents (Elt F) → (⟨S32x1x512x512, .f32⟩ : BufTy).Contents (Elt F)),
    StableHlo.binary main_v61 main_v60 main_v62 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v62 main_v60 main_v63 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v63 main_v64 (Host.exp : (⟨S32x1x512x512, .f32⟩ : BufTy).Contents (Elt F) → (⟨S32x1x512x512, .f32⟩ : BufTy).Contents (Elt F)),
    StableHlo.nullary main_cst_17 (constant S_ .f32 0x3F7FCB98#32),
    StableHlo.unary main_cst_17 main_v65 (broadcastInDim S32x1x512x512 ![] bcast_S_S32x1x512x512 : (⟨S_, .f32⟩ : BufTy).Contents (Elt F) → (⟨S32x1x512x512, .f32⟩ : BufTy).Contents (Elt F)),
    StableHlo.binary main_v65 main_v64 main_v66 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v66 main_v59 main_v67 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v57 main_v67 main_v68 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v58 main_v66 main_v69 (addf : (⟨S32x1x512x512, .f32⟩ : BufTy).Contents (Elt F) → (⟨S32x1x512x512, .f32⟩ : BufTy).Contents (Elt F) → (⟨S32x1x512x512, .f32⟩ : BufTy).Contents (Elt F)) ]

/-- Tap 6 of thirteen: the shifted window of the halo image, its colour difference to the blend, the weight, and the two sums advanced. -/
def opsTap6 : List (HloOp τ sig (Elt F)) :=
  [ StableHlo.unary main_v12 main_v70 ((extractStridedSlice S32x1x512x512 ![0, 0, 2, 1] · slices_S32x1x516x516_S32x1x512x512_0_0_2_1) : (⟨S32x1x516x516, .f32⟩ : BufTy).Contents (Elt F) → (⟨S32x1x512x512, .f32⟩ : BufTy).Contents (Elt F)),
    StableHlo.binary main_v70 main_v11 main_v71 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_18 (constant S_ .f32 0xC3480000#32),
    StableHlo.unary main_cst_18 main_v72 (broadcastInDim S32x1x512x512 ![] bcast_S_S32x1x512x512 : (⟨S_, .f32⟩ : BufTy).Contents (Elt F) → (⟨S32x1x512x512, .f32⟩ : BufTy).Contents (Elt F)),
    StableHlo.binary main_v72 main_v71 main_v73 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v73 main_v71 main_v74 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v74 main_v75 (Host.exp : (⟨S32x1x512x512, .f32⟩ : BufTy).Contents (Elt F) → (⟨S32x1x512x512, .f32⟩ : BufTy).Contents (Elt F)),
    StableHlo.nullary main_cst_19 (constant S_ .f32 0x3F7FF2E5#32),
    StableHlo.unary main_cst_19 main_v76 (broadcastInDim S32x1x512x512 ![] bcast_S_S32x1x512x512 : (⟨S_, .f32⟩ : BufTy).Contents (Elt F) → (⟨S32x1x512x512, .f32⟩ : BufTy).Contents (Elt F)),
    StableHlo.binary main_v76 main_v75 main_v77 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v77 main_v70 main_v78 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v68 main_v78 main_v79 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v69 main_v77 main_v80 (addf : (⟨S32x1x512x512, .f32⟩ : BufTy).Contents (Elt F) → (⟨S32x1x512x512, .f32⟩ : BufTy).Contents (Elt F) → (⟨S32x1x512x512, .f32⟩ : BufTy).Contents (Elt F)) ]

/-- Tap 7 of thirteen: the shifted window of the halo image, its colour difference to the blend, the weight, and the two sums advanced. -/
def opsTap7 : List (HloOp τ sig (Elt F)) :=
  [ StableHlo.unary main_v12 main_v81 ((extractStridedSlice S32x1x512x512 ![0, 0, 2, 2] · slices_S32x1x516x516_S32x1x512x512_0_0_2_2) : (⟨S32x1x516x516, .f32⟩ : BufTy).Contents (Elt F) → (⟨S32x1x512x512, .f32⟩ : BufTy).Contents (Elt F)),
    StableHlo.binary main_v81 main_v11 main_v82 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_20 (constant S_ .f32 0xC3480000#32),
    StableHlo.unary main_cst_20 main_v83 (broadcastInDim S32x1x512x512 ![] bcast_S_S32x1x512x512 : (⟨S_, .f32⟩ : BufTy).Contents (Elt F) → (⟨S32x1x512x512, .f32⟩ : BufTy).Contents (Elt F)),
    StableHlo.binary main_v83 main_v82 main_v84 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v84 main_v82 main_v85 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v85 main_v86 (Host.exp : (⟨S32x1x512x512, .f32⟩ : BufTy).Contents (Elt F) → (⟨S32x1x512x512, .f32⟩ : BufTy).Contents (Elt F)),
    StableHlo.nullary main_cst_21 (constant S_ .f32 0x3F800000#32),
    StableHlo.unary main_cst_21 main_v87 (broadcastInDim S32x1x512x512 ![] bcast_S_S32x1x512x512 : (⟨S_, .f32⟩ : BufTy).Contents (Elt F) → (⟨S32x1x512x512, .f32⟩ : BufTy).Contents (Elt F)),
    StableHlo.binary main_v87 main_v86 main_v88 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v88 main_v81 main_v89 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v79 main_v89 main_v90 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v80 main_v88 main_v91 (addf : (⟨S32x1x512x512, .f32⟩ : BufTy).Contents (Elt F) → (⟨S32x1x512x512, .f32⟩ : BufTy).Contents (Elt F) → (⟨S32x1x512x512, .f32⟩ : BufTy).Contents (Elt F)) ]

/-- Tap 8 of thirteen: the shifted window of the halo image, its colour difference to the blend, the weight, and the two sums advanced. -/
def opsTap8 : List (HloOp τ sig (Elt F)) :=
  [ StableHlo.unary main_v12 main_v92 ((extractStridedSlice S32x1x512x512 ![0, 0, 2, 3] · slices_S32x1x516x516_S32x1x512x512_0_0_2_3) : (⟨S32x1x516x516, .f32⟩ : BufTy).Contents (Elt F) → (⟨S32x1x512x512, .f32⟩ : BufTy).Contents (Elt F)),
    StableHlo.binary main_v92 main_v11 main_v93 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_22 (constant S_ .f32 0xC3480000#32),
    StableHlo.unary main_cst_22 main_v94 (broadcastInDim S32x1x512x512 ![] bcast_S_S32x1x512x512 : (⟨S_, .f32⟩ : BufTy).Contents (Elt F) → (⟨S32x1x512x512, .f32⟩ : BufTy).Contents (Elt F)),
    StableHlo.binary main_v94 main_v93 main_v95 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v95 main_v93 main_v96 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v96 main_v97 (Host.exp : (⟨S32x1x512x512, .f32⟩ : BufTy).Contents (Elt F) → (⟨S32x1x512x512, .f32⟩ : BufTy).Contents (Elt F)),
    StableHlo.nullary main_cst_23 (constant S_ .f32 0x3F7FF2E5#32),
    StableHlo.unary main_cst_23 main_v98 (broadcastInDim S32x1x512x512 ![] bcast_S_S32x1x512x512 : (⟨S_, .f32⟩ : BufTy).Contents (Elt F) → (⟨S32x1x512x512, .f32⟩ : BufTy).Contents (Elt F)),
    StableHlo.binary main_v98 main_v97 main_v99 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v99 main_v92 main_v100 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v90 main_v100 main_v101 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v91 main_v99 main_v102 (addf : (⟨S32x1x512x512, .f32⟩ : BufTy).Contents (Elt F) → (⟨S32x1x512x512, .f32⟩ : BufTy).Contents (Elt F) → (⟨S32x1x512x512, .f32⟩ : BufTy).Contents (Elt F)) ]

/-- Tap 9 of thirteen: the shifted window of the halo image, its colour difference to the blend, the weight, and the two sums advanced. -/
def opsTap9 : List (HloOp τ sig (Elt F)) :=
  [ StableHlo.unary main_v12 main_v103 ((extractStridedSlice S32x1x512x512 ![0, 0, 2, 4] · slices_S32x1x516x516_S32x1x512x512_0_0_2_4) : (⟨S32x1x516x516, .f32⟩ : BufTy).Contents (Elt F) → (⟨S32x1x512x512, .f32⟩ : BufTy).Contents (Elt F)),
    StableHlo.binary main_v103 main_v11 main_v104 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_24 (constant S_ .f32 0xC3480000#32),
    StableHlo.unary main_cst_24 main_v105 (broadcastInDim S32x1x512x512 ![] bcast_S_S32x1x512x512 : (⟨S_, .f32⟩ : BufTy).Contents (Elt F) → (⟨S32x1x512x512, .f32⟩ : BufTy).Contents (Elt F)),
    StableHlo.binary main_v105 main_v104 main_v106 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v106 main_v104 main_v107 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v107 main_v108 (Host.exp : (⟨S32x1x512x512, .f32⟩ : BufTy).Contents (Elt F) → (⟨S32x1x512x512, .f32⟩ : BufTy).Contents (Elt F)),
    StableHlo.nullary main_cst_25 (constant S_ .f32 0x3F7FCB98#32),
    StableHlo.unary main_cst_25 main_v109 (broadcastInDim S32x1x512x512 ![] bcast_S_S32x1x512x512 : (⟨S_, .f32⟩ : BufTy).Contents (Elt F) → (⟨S32x1x512x512, .f32⟩ : BufTy).Contents (Elt F)),
    StableHlo.binary main_v109 main_v108 main_v110 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v110 main_v103 main_v111 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v101 main_v111 main_v112 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v102 main_v110 main_v113 (addf : (⟨S32x1x512x512, .f32⟩ : BufTy).Contents (Elt F) → (⟨S32x1x512x512, .f32⟩ : BufTy).Contents (Elt F) → (⟨S32x1x512x512, .f32⟩ : BufTy).Contents (Elt F)) ]

/-- Tap 10 of thirteen: the shifted window of the halo image, its colour difference to the blend, the weight, and the two sums advanced. -/
def opsTap10 : List (HloOp τ sig (Elt F)) :=
  [ StableHlo.unary main_v12 main_v114 ((extractStridedSlice S32x1x512x512 ![0, 0, 3, 1] · slices_S32x1x516x516_S32x1x512x512_0_0_3_1) : (⟨S32x1x516x516, .f32⟩ : BufTy).Contents (Elt F) → (⟨S32x1x512x512, .f32⟩ : BufTy).Contents (Elt F)),
    StableHlo.binary main_v114 main_v11 main_v115 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_26 (constant S_ .f32 0xC3480000#32),
    StableHlo.unary main_cst_26 main_v116 (broadcastInDim S32x1x512x512 ![] bcast_S_S32x1x512x512 : (⟨S_, .f32⟩ : BufTy).Contents (Elt F) → (⟨S32x1x512x512, .f32⟩ : BufTy).Contents (Elt F)),
    StableHlo.binary main_v116 main_v115 main_v117 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v117 main_v115 main_v118 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v118 main_v119 (Host.exp : (⟨S32x1x512x512, .f32⟩ : BufTy).Contents (Elt F) → (⟨S32x1x512x512, .f32⟩ : BufTy).Contents (Elt F)),
    StableHlo.nullary main_cst_27 (constant S_ .f32 0x3F7FE5CA#32),
    StableHlo.unary main_cst_27 main_v120 (broadcastInDim S32x1x512x512 ![] bcast_S_S32x1x512x512 : (⟨S_, .f32⟩ : BufTy).Contents (Elt F) → (⟨S32x1x512x512, .f32⟩ : BufTy).Contents (Elt F)),
    StableHlo.binary main_v120 main_v119 main_v121 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v121 main_v114 main_v122 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v112 main_v122 main_v123 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v113 main_v121 main_v124 (addf : (⟨S32x1x512x512, .f32⟩ : BufTy).Contents (Elt F) → (⟨S32x1x512x512, .f32⟩ : BufTy).Contents (Elt F) → (⟨S32x1x512x512, .f32⟩ : BufTy).Contents (Elt F)) ]

/-- Tap 11 of thirteen: the shifted window of the halo image, its colour difference to the blend, the weight, and the two sums advanced. -/
def opsTap11 : List (HloOp τ sig (Elt F)) :=
  [ StableHlo.unary main_v12 main_v125 ((extractStridedSlice S32x1x512x512 ![0, 0, 3, 2] · slices_S32x1x516x516_S32x1x512x512_0_0_3_2) : (⟨S32x1x516x516, .f32⟩ : BufTy).Contents (Elt F) → (⟨S32x1x512x512, .f32⟩ : BufTy).Contents (Elt F)),
    StableHlo.binary main_v125 main_v11 main_v126 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_28 (constant S_ .f32 0xC3480000#32),
    StableHlo.unary main_cst_28 main_v127 (broadcastInDim S32x1x512x512 ![] bcast_S_S32x1x512x512 : (⟨S_, .f32⟩ : BufTy).Contents (Elt F) → (⟨S32x1x512x512, .f32⟩ : BufTy).Contents (Elt F)),
    StableHlo.binary main_v127 main_v126 main_v128 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v128 main_v126 main_v129 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v129 main_v130 (Host.exp : (⟨S32x1x512x512, .f32⟩ : BufTy).Contents (Elt F) → (⟨S32x1x512x512, .f32⟩ : BufTy).Contents (Elt F)),
    StableHlo.nullary main_cst_29 (constant S_ .f32 0x3F7FF2E5#32),
    StableHlo.unary main_cst_29 main_v131 (broadcastInDim S32x1x512x512 ![] bcast_S_S32x1x512x512 : (⟨S_, .f32⟩ : BufTy).Contents (Elt F) → (⟨S32x1x512x512, .f32⟩ : BufTy).Contents (Elt F)),
    StableHlo.binary main_v131 main_v130 main_v132 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v132 main_v125 main_v133 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v123 main_v133 main_v134 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v124 main_v132 main_v135 (addf : (⟨S32x1x512x512, .f32⟩ : BufTy).Contents (Elt F) → (⟨S32x1x512x512, .f32⟩ : BufTy).Contents (Elt F) → (⟨S32x1x512x512, .f32⟩ : BufTy).Contents (Elt F)) ]

/-- Tap 12 of thirteen: the shifted window of the halo image, its colour difference to the blend, the weight, and the two sums advanced. -/
def opsTap12 : List (HloOp τ sig (Elt F)) :=
  [ StableHlo.unary main_v12 main_v136 ((extractStridedSlice S32x1x512x512 ![0, 0, 3, 3] · slices_S32x1x516x516_S32x1x512x512_0_0_3_3) : (⟨S32x1x516x516, .f32⟩ : BufTy).Contents (Elt F) → (⟨S32x1x512x512, .f32⟩ : BufTy).Contents (Elt F)),
    StableHlo.binary main_v136 main_v11 main_v137 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_30 (constant S_ .f32 0xC3480000#32),
    StableHlo.unary main_cst_30 main_v138 (broadcastInDim S32x1x512x512 ![] bcast_S_S32x1x512x512 : (⟨S_, .f32⟩ : BufTy).Contents (Elt F) → (⟨S32x1x512x512, .f32⟩ : BufTy).Contents (Elt F)),
    StableHlo.binary main_v138 main_v137 main_v139 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v139 main_v137 main_v140 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v140 main_v141 (Host.exp : (⟨S32x1x512x512, .f32⟩ : BufTy).Contents (Elt F) → (⟨S32x1x512x512, .f32⟩ : BufTy).Contents (Elt F)),
    StableHlo.nullary main_cst_31 (constant S_ .f32 0x3F7FE5CA#32),
    StableHlo.unary main_cst_31 main_v142 (broadcastInDim S32x1x512x512 ![] bcast_S_S32x1x512x512 : (⟨S_, .f32⟩ : BufTy).Contents (Elt F) → (⟨S32x1x512x512, .f32⟩ : BufTy).Contents (Elt F)),
    StableHlo.binary main_v142 main_v141 main_v143 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v143 main_v136 main_v144 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v134 main_v144 main_v145 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v135 main_v143 main_v146 (addf : (⟨S32x1x512x512, .f32⟩ : BufTy).Contents (Elt F) → (⟨S32x1x512x512, .f32⟩ : BufTy).Contents (Elt F) → (⟨S32x1x512x512, .f32⟩ : BufTy).Contents (Elt F)) ]

/-- Tap 13 of thirteen: the shifted window of the halo image, its colour difference to the blend, the weight, and the two sums advanced. -/
def opsTap13 : List (HloOp τ sig (Elt F)) :=
  [ StableHlo.unary main_v12 main_v147 ((extractStridedSlice S32x1x512x512 ![0, 0, 4, 2] · slices_S32x1x516x516_S32x1x512x512_0_0_4_2) : (⟨S32x1x516x516, .f32⟩ : BufTy).Contents (Elt F) → (⟨S32x1x512x512, .f32⟩ : BufTy).Contents (Elt F)),
    StableHlo.binary main_v147 main_v11 main_v148 (subf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_32 (constant S_ .f32 0xC3480000#32),
    StableHlo.unary main_cst_32 main_v149 (broadcastInDim S32x1x512x512 ![] bcast_S_S32x1x512x512 : (⟨S_, .f32⟩ : BufTy).Contents (Elt F) → (⟨S32x1x512x512, .f32⟩ : BufTy).Contents (Elt F)),
    StableHlo.binary main_v149 main_v148 main_v150 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v150 main_v148 main_v151 (mulf : (⟨S32x1x512x512, .f32⟩ : BufTy).Contents (Elt F) → (⟨S32x1x512x512, .f32⟩ : BufTy).Contents (Elt F) → (⟨S32x1x512x512, .f32⟩ : BufTy).Contents (Elt F)),
    StableHlo.unary main_v151 main_v152 (Host.exp : (⟨S32x1x512x512, .f32⟩ : BufTy).Contents (Elt F) → (⟨S32x1x512x512, .f32⟩ : BufTy).Contents (Elt F)),
    StableHlo.nullary main_cst_33 (constant S_ .f32 0x3F7FCB98#32),
    StableHlo.unary main_cst_33 main_v153 (broadcastInDim S32x1x512x512 ![] bcast_S_S32x1x512x512 : (⟨S_, .f32⟩ : BufTy).Contents (Elt F) → (⟨S32x1x512x512, .f32⟩ : BufTy).Contents (Elt F)),
    StableHlo.binary main_v153 main_v152 main_v154 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v154 main_v147 main_v155 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v145 main_v155 main_v156 (addf : (⟨S32x1x512x512, .f32⟩ : BufTy).Contents (Elt F) → (⟨S32x1x512x512, .f32⟩ : BufTy).Contents (Elt F) → (⟨S32x1x512x512, .f32⟩ : BufTy).Contents (Elt F)),
    StableHlo.binary main_v146 main_v154 main_v157 (addf : (⟨S32x1x512x512, .f32⟩ : BufTy).Contents (Elt F) → (⟨S32x1x512x512, .f32⟩ : BufTy).Contents (Elt F) → (⟨S32x1x512x512, .f32⟩ : BufTy).Contents (Elt F)) ]

/-- The quotient of the two sums. -/
def opsDiv : List (HloOp τ sig (Elt F)) :=
  [ StableHlo.binary main_v156 main_v157 main_v158 (Host.divf : (⟨S32x1x512x512, .f32⟩ : BufTy).Contents (Elt F) → (⟨S32x1x512x512, .f32⟩ : BufTy).Contents (Elt F) → (⟨S32x1x512x512, .f32⟩ : BufTy).Contents (Elt F)) ]

/-- The whole program's operations: the stages in order. -/
def ops : List (HloOp τ sig (Elt F)) :=
  opsBlend ++ (opsHaloA ++ (opsHaloB ++ (opsHaloC ++ (opsHaloD ++ (opsZero ++ (opsTap1 ++ (opsTap2 ++ (opsTap3 ++ (opsTap4 ++ (opsTap5 ++ (opsTap6 ++ (opsTap7 ++ (opsTap8 ++ (opsTap9 ++ (opsTap10 ++ (opsTap11 ++ (opsTap12 ++ (opsTap13 ++ (opsDiv)))))))))))))))))))

end Cert.ReferenceIdeal.RefRun

end
-- ==== Proof.RefOpsFacts.lean ====
/-
  About the operation lists (RefOps.lean): running two lists in a row is running their concatenation; every
  operation touches TensorCore references only; none leaves a result undetermined.
-/
import proofs.«157411_j11484742549760_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists in a row is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Over a literal list of the builders' operations: each one's buffers are TensorCore references. -/
macro "bufs_sub_all" : tactic =>
  `(tactic| simp only [List.Forall, nullary_bufs_sub, unary_bufs_sub, binary_bufs_sub, and_self])

/-- Over a literal list of the builders' operations: each one determines its results, by computation. -/
macro "fresh_all" : tactic =>
  `(tactic| (simp only [List.Forall]
             repeat' (first | apply And.intro | rfl)))

theorem opsBlend_sub : (opsBlend : List (HloOp τ sig (Elt F))).Forall fun op => op.bufs ⊆ tcRefs τ sig := by
  unfold opsBlend; bufs_sub_all
theorem opsBlend_fresh : (opsBlend : List (HloOp τ sig (Elt F))).Forall fun op => op.fresh = ∅ := by
  unfold opsBlend; fresh_all

theorem opsHaloA_sub : (opsHaloA : List (HloOp τ sig (Elt F))).Forall fun op => op.bufs ⊆ tcRefs τ sig := by
  unfold opsHaloA; bufs_sub_all
theorem opsHaloA_fresh : (opsHaloA : List (HloOp τ sig (Elt F))).Forall fun op => op.fresh = ∅ := by
  unfold opsHaloA; fresh_all

theorem opsHaloB_sub : (opsHaloB : List (HloOp τ sig (Elt F))).Forall fun op => op.bufs ⊆ tcRefs τ sig := by
  unfold opsHaloB; bufs_sub_all
theorem opsHaloB_fresh : (opsHaloB : List (HloOp τ sig (Elt F))).Forall fun op => op.fresh = ∅ := by
  unfold opsHaloB; fresh_all

theorem opsHaloC_sub : (opsHaloC : List (HloOp τ sig (Elt F))).Forall fun op => op.bufs ⊆ tcRefs τ sig := by
  unfold opsHaloC; bufs_sub_all
theorem opsHaloC_fresh : (opsHaloC : List (HloOp τ sig (Elt F))).Forall fun op => op.fresh = ∅ := by
  unfold opsHaloC; fresh_all

theorem opsHaloD_sub : (opsHaloD : List (HloOp τ sig (Elt F))).Forall fun op => op.bufs ⊆ tcRefs τ sig := by
  unfold opsHaloD; bufs_sub_all
theorem opsHaloD_fresh : (opsHaloD : List (HloOp τ sig (Elt F))).Forall fun op => op.fresh = ∅ := by
  unfold opsHaloD; fresh_all

theorem opsZero_sub : (opsZero : List (HloOp τ sig (Elt F))).Forall fun op => op.bufs ⊆ tcRefs τ sig := by
  unfold opsZero; bufs_sub_all
theorem opsZero_fresh : (opsZero : List (HloOp τ sig (Elt F))).Forall fun op => op.fresh = ∅ := by
  unfold opsZero; fresh_all

theorem opsTap1_sub : (opsTap1 : List (HloOp τ sig (Elt F))).Forall fun op => op.bufs ⊆ tcRefs τ sig := by
  unfold opsTap1; bufs_sub_all
theorem opsTap1_fresh : (opsTap1 : List (HloOp τ sig (Elt F))).Forall fun op => op.fresh = ∅ := by
  unfold opsTap1; fresh_all

theorem opsTap2_sub : (opsTap2 : List (HloOp τ sig (Elt F))).Forall fun op => op.bufs ⊆ tcRefs τ sig := by
  unfold opsTap2; bufs_sub_all
theorem opsTap2_fresh : (opsTap2 : List (HloOp τ sig (Elt F))).Forall fun op => op.fresh = ∅ := by
  unfold opsTap2; fresh_all

theorem opsTap3_sub : (opsTap3 : List (HloOp τ sig (Elt F))).Forall fun op => op.bufs ⊆ tcRefs τ sig := by
  unfold opsTap3; bufs_sub_all
theorem opsTap3_fresh : (opsTap3 : List (HloOp τ sig (Elt F))).Forall fun op => op.fresh = ∅ := by
  unfold opsTap3; fresh_all

theorem opsTap4_sub : (opsTap4 : List (HloOp τ sig (Elt F))).Forall fun op => op.bufs ⊆ tcRefs τ sig := by
  unfold opsTap4; bufs_sub_all
theorem opsTap4_fresh : (opsTap4 : List (HloOp τ sig (Elt F))).Forall fun op => op.fresh = ∅ := by
  unfold opsTap4; fresh_all

theorem opsTap5_sub : (opsTap5 : List (HloOp τ sig (Elt F))).Forall fun op => op.bufs ⊆ tcRefs τ sig := by
  unfold opsTap5; bufs_sub_all
theorem opsTap5_fresh : (opsTap5 : List (HloOp τ sig (Elt F))).Forall fun op => op.fresh = ∅ := by
  unfold opsTap5; fresh_all

theorem opsTap6_sub : (opsTap6 : List (HloOp τ sig (Elt F))).Forall fun op => op.bufs ⊆ tcRefs τ sig := by
  unfold opsTap6; bufs_sub_all
theorem opsTap6_fresh : (opsTap6 : List (HloOp τ sig (Elt F))).Forall fun op => op.fresh = ∅ := by
  unfold opsTap6; fresh_all

theorem opsTap7_sub : (opsTap7 : List (HloOp τ sig (Elt F))).Forall fun op => op.bufs ⊆ tcRefs τ sig := by
  unfold opsTap7; bufs_sub_all
theorem opsTap7_fresh : (opsTap7 : List (HloOp τ sig (Elt F))).Forall fun op => op.fresh = ∅ := by
  unfold opsTap7; fresh_all

theorem opsTap8_sub : (opsTap8 : List (HloOp τ sig (Elt F))).Forall fun op => op.bufs ⊆ tcRefs τ sig := by
  unfold opsTap8; bufs_sub_all
theorem opsTap8_fresh : (opsTap8 : List (HloOp τ sig (Elt F))).Forall fun op => op.fresh = ∅ := by
  unfold opsTap8; fresh_all

theorem opsTap9_sub : (opsTap9 : List (HloOp τ sig (Elt F))).Forall fun op => op.bufs ⊆ tcRefs τ sig := by
  unfold opsTap9; bufs_sub_all
theorem opsTap9_fresh : (opsTap9 : List (HloOp τ sig (Elt F))).Forall fun op => op.fresh = ∅ := by
  unfold opsTap9; fresh_all

theorem opsTap10_sub : (opsTap10 : List (HloOp τ sig (Elt F))).Forall fun op => op.bufs ⊆ tcRefs τ sig := by
  unfold opsTap10; bufs_sub_all
theorem opsTap10_fresh : (opsTap10 : List (HloOp τ sig (Elt F))).Forall fun op => op.fresh = ∅ := by
  unfold opsTap10; fresh_all

theorem opsTap11_sub : (opsTap11 : List (HloOp τ sig (Elt F))).Forall fun op => op.bufs ⊆ tcRefs τ sig := by
  unfold opsTap11; bufs_sub_all
theorem opsTap11_fresh : (opsTap11 : List (HloOp τ sig (Elt F))).Forall fun op => op.fresh = ∅ := by
  unfold opsTap11; fresh_all

theorem opsTap12_sub : (opsTap12 : List (HloOp τ sig (Elt F))).Forall fun op => op.bufs ⊆ tcRefs τ sig := by
  unfold opsTap12; bufs_sub_all
theorem opsTap12_fresh : (opsTap12 : List (HloOp τ sig (Elt F))).Forall fun op => op.fresh = ∅ := by
  unfold opsTap12; fresh_all

theorem opsTap13_sub : (opsTap13 : List (HloOp τ sig (Elt F))).Forall fun op => op.bufs ⊆ tcRefs τ sig := by
  unfold opsTap13; bufs_sub_all
theorem opsTap13_fresh : (opsTap13 : List (HloOp τ sig (Elt F))).Forall fun op => op.fresh = ∅ := by
  unfold opsTap13; fresh_all

theorem opsDiv_sub : (opsDiv : List (HloOp τ sig (Elt F))).Forall fun op => op.bufs ⊆ tcRefs τ sig := by
  unfold opsDiv; bufs_sub_all
theorem opsDiv_fresh : (opsDiv : List (HloOp τ sig (Elt F))).Forall fun op => op.fresh = ∅ := by
  unfold opsDiv; fresh_all

theorem ops_sub : (ops : List (HloOp τ sig (Elt F))).Forall fun op => op.bufs ⊆ tcRefs τ sig := by
  simp only [ops, List.forall_append]
  exact ⟨opsBlend_sub, ⟨opsHaloA_sub, ⟨opsHaloB_sub, ⟨opsHaloC_sub, ⟨opsHaloD_sub, ⟨opsZero_sub, ⟨opsTap1_sub, ⟨opsTap2_sub, ⟨opsTap3_sub, ⟨opsTap4_sub, ⟨opsTap5_sub, ⟨opsTap6_sub, ⟨opsTap7_sub, ⟨opsTap8_sub, ⟨opsTap9_sub, ⟨opsTap10_sub, ⟨opsTap11_sub, ⟨opsTap12_sub, ⟨opsTap13_sub, opsDiv_sub⟩⟩⟩⟩⟩⟩⟩⟩⟩⟩⟩⟩⟩⟩⟩⟩⟩⟩⟩

theorem ops_fresh : ∀ op ∈ (ops : List (HloOp τ sig (Elt F))), op.fresh = ∅ := by
  refine List.forall_iff_forall_mem.mp ?_
  simp only [ops, List.forall_append]
  exact ⟨opsBlend_fresh, ⟨opsHaloA_fresh, ⟨opsHaloB_fresh, ⟨opsHaloC_fresh, ⟨opsHaloD_fresh, ⟨opsZero_fresh, ⟨opsTap1_fresh, ⟨opsTap2_fresh, ⟨opsTap3_fresh, ⟨opsTap4_fresh, ⟨opsTap5_fresh, ⟨opsTap6_fresh, ⟨opsTap7_fresh, ⟨opsTap8_fresh, ⟨opsTap9_fresh, ⟨opsTap10_fresh, ⟨opsTap11_fresh, ⟨opsTap12_fresh, ⟨opsTap13_fresh, opsDiv_fresh⟩⟩⟩⟩⟩⟩⟩⟩⟩⟩⟩⟩⟩⟩⟩⟩⟩⟩⟩

end Cert.ReferenceIdeal.RefRun

end
-- ==== Proof.RefOpsMain.lean ====
/-
  The reference program is the run of its operation list: the four windows of @main and the outlined functions'
  bodies unfolded at their calls and the lists' concatenation computed, both sides are the same chain of host steps.
-/
import proofs.«157411_j11484742549760_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the chain is two hundred and fifteen steps deep
set_option maxRecDepth 65536 in
set_option maxHeartbeats 4000000 in
theorem main_eq (c : Dev nD) : main (F := F) c = seq ops := rfl

end Cert.ReferenceIdeal.RefRun

end
-- ==== Proof.RefSpec.lean ====
/-
  The reference's result as ONE function of its argument array, stage by stage: the clipped and gamma-blended
  image, its reflected halo of width two, and the bilateral quotient accumulated over the thirteen taps of
  the radius-2 disc, in the order the program adds them.
-/
import proofs.«157411_j11484742549760_2_alg».proof.Proof.Gen.ReferenceIdeal

noncomputable section

namespace Cert.ReferenceIdeal.RefSpec

open Cert.ReferenceIdeal Cert.ReferenceIdeal.Gen Idealize.ShloMosaic

variable {F : FTy → Type} [FloatOps F]

/-- One scalar word spread over the batch of images. -/
def splat (w : BitVec 32) : FVec F S32x1x512x512 .f32 :=
  broadcastInDim S32x1x512x512 ![] bcast_S_S32x1x512x512 (constant S_ .f32 w)

/-- `min 1 (max 1e-6 ((x + 1) / 2))`, entry by entry. -/
def clipped (x : FVec F S32x1x512x512 .f32) : FVec F S32x1x512x512 .f32 :=
  minimumf (splat 0x3F800000#32) (maximumf (splat 0x358637BD#32)
    (Host.divf (addf x (splat 0x3F800000#32)) (splat 0x40000000#32)))

/-- `0.6 c + 0.4 c^1.5` of the clipped image `c`. -/
def blended (x : FVec F S32x1x512x512 .f32) : FVec F S32x1x512x512 .f32 :=
  addf (mulf (splat 0x3F19999A#32) (clipped x))
    (mulf (splat 0x3ECCCCCD#32) (Host.powf (clipped x) (splat 0x3FC00000#32)))

/-- Rows 2, 1 reversed in front of the image: 514 rows. -/
def rowsTop (B : FVec F S32x1x512x512 .f32) : FVec F S32x1x514x512 .f32 :=
  concatenate S32x1x514x512 2
    [⟨S32x1x2x512, Host.reverse [2] (extractStridedSlice S32x1x2x512 ![0, 0, 1, 0] B slices_S32x1x512x512_S32x1x2x512_0_0_1_0)⟩,
     ⟨S32x1x512x512, B⟩] concatenates_S32x1x2x512_S32x1x512x512_S32x1x514x512_d2

/-- Then rows 510, 509 behind it: 516 rows. -/
def rowsAll (B : FVec F S32x1x512x512 .f32) : FVec F S32x1x516x512 .f32 :=
  concatenate S32x1x516x512 2
    [⟨S32x1x514x512, rowsTop B⟩,
     ⟨S32x1x2x512, Host.reverse [2] (extractStridedSlice S32x1x2x512 ![0, 0, 511, 0] (rowsTop B) slices_S32x1x514x512_S32x1x2x512_0_0_511_0)⟩]
    concatenates_S32x1x514x512_S32x1x2x512_S32x1x516x512_d2

/-- Columns 2, 1 reversed in front: 514 columns. -/
def colsLeft (B : FVec F S32x1x512x512 .f32) : FVec F S32x1x516x514 .f32 :=
  concatenate S32x1x516x514 3
    [⟨S32x1x516x2, Host.reverse [3] (extractStridedSlice S32x1x516x2 ![0, 0, 0, 1] (rowsAll B) slices_S32x1x516x512_S32x1x516x2_0_0_0_1)⟩,
     ⟨S32x1x516x512, rowsAll B⟩] concatenates_S32x1x516x2_S32x1x516x512_S32x1x516x514_d3

/-- The reflected halo of width two around every image: 516 by 516. -/
def padded (B : FVec F S32x1x512x512 .f32) : FVec F S32x1x516x516 .f32 :=
  concatenate S32x1x516x516 3
    [⟨S32x1x516x514, colsLeft B⟩,
     ⟨S32x1x516x2, Host.reverse [3] (extractStridedSlice S32x1x516x2 ![0, 0, 0, 511] (colsLeft B) slices_S32x1x516x514_S32x1x516x2_0_0_0_511)⟩]
    concatenates_S32x1x516x514_S32x1x516x2_S32x1x516x516_d3

/-- The halo image moved by (-2, 0): tap 1 of the thirteen of the radius-2 disc. -/
def shift1 (P : FVec F S32x1x516x516 .f32) : FVec F S32x1x512x512 .f32 :=
  extractStridedSlice S32x1x512x512 ![0, 0, 0, 2] P slices_S32x1x516x516_S32x1x512x512_0_0_0_2
/-- The halo image moved by (-1, -1): tap 2 of the thirteen of the radius-2 disc. -/
def shift2 (P : FVec F S32x1x516x516 .f32) : FVec F S32x1x512x512 .f32 :=
  extractStridedSlice S32x1x512x512 ![0, 0, 1, 1] P slices_S32x1x516x516_S32x1x512x512_0_0_1_1
/-- The halo image moved by (-1, 0): tap 3 of the thirteen of the radius-2 disc. -/
def shift3 (P : FVec F S32x1x516x516 .f32) : FVec F S32x1x512x512 .f32 :=
  extractStridedSlice S32x1x512x512 ![0, 0, 1, 2] P slices_S32x1x516x516_S32x1x512x512_0_0_1_2
/-- The halo image moved by (-1, 1): tap 4 of the thirteen of the radius-2 disc. -/
def shift4 (P : FVec F S32x1x516x516 .f32) : FVec F S32x1x512x512 .f32 :=
  extractStridedSlice S32x1x512x512 ![0, 0, 1, 3] P slices_S32x1x516x516_S32x1x512x512_0_0_1_3
/-- The halo image moved by (0, -2): tap 5 of the thirteen of the radius-2 disc. -/
def shift5 (P : FVec F S32x1x516x516 .f32) : FVec F S32x1x512x512 .f32 :=
  extractStridedSlice S32x1x512x512 ![0, 0, 2, 0] P slices_S32x1x516x516_S32x1x512x512_0_0_2_0
/-- The halo image moved by (0, -1): tap 6 of the thirteen of the radius-2 disc. -/
def shift6 (P : FVec F S32x1x516x516 .f32) : FVec F S32x1x512x512 .f32 :=
  extractStridedSlice S32x1x512x512 ![0, 0, 2, 1] P slices_S32x1x516x516_S32x1x512x512_0_0_2_1
/-- The halo image moved by (0, 0): tap 7 of the thirteen of the radius-2 disc. -/
def shift7 (P : FVec F S32x1x516x516 .f32) : FVec F S32x1x512x512 .f32 :=
  extractStridedSlice S32x1x512x512 ![0, 0, 2, 2] P slices_S32x1x516x516_S32x1x512x512_0_0_2_2
/-- The halo image moved by (0, 1): tap 8 of the thirteen of the radius-2 disc. -/
def shift8 (P : FVec F S32x1x516x516 .f32) : FVec F S32x1x512x512 .f32 :=
  extractStridedSlice S32x1x512x512 ![0, 0, 2, 3] P slices_S32x1x516x516_S32x1x512x512_0_0_2_3
/-- The halo image moved by (0, 2): tap 9 of the thirteen of the radius-2 disc. -/
def shift9 (P : FVec F S32x1x516x516 .f32) : FVec F S32x1x512x512 .f32 :=
  extractStridedSlice S32x1x512x512 ![0, 0, 2, 4] P slices_S32x1x516x516_S32x1x512x512_0_0_2_4
/-- The halo image moved by (1, -1): tap 10 of the thirteen of the radius-2 disc. -/
def shift10 (P : FVec F S32x1x516x516 .f32) : FVec F S32x1x512x512 .f32 :=
  extractStridedSlice S32x1x512x512 ![0, 0, 3, 1] P slices_S32x1x516x516_S32x1x512x512_0_0_3_1
/-- The halo image moved by (1, 0): tap 11 of the thirteen of the radius-2 disc. -/
def shift11 (P : FVec F S32x1x516x516 .f32) : FVec F S32x1x512x512 .f32 :=
  extractStridedSlice S32x1x512x512 ![0, 0, 3, 2] P slices_S32x1x516x516_S32x1x512x512_0_0_3_2
/-- The halo image moved by (1, 1): tap 12 of the thirteen of the radius-2 disc. -/
def shift12 (P : FVec F S32x1x516x516 .f32) : FVec F S32x1x512x512 .f32 :=
  extractStridedSlice S32x1x512x512 ![0, 0, 3, 3] P slices_S32x1x516x516_S32x1x512x512_0_0_3_3
/-- The halo image moved by (2, 0): tap 13 of the thirteen of the radius-2 disc. -/
def shift13 (P : FVec F S32x1x516x516 .f32) : FVec F S32x1x512x512 .f32 :=
  extractStridedSlice S32x1x512x512 ![0, 0, 4, 2] P slices_S32x1x516x516_S32x1x512x512_0_0_4_2

/-- A tap's weight: its spatial weight `s` times `exp (-200 d²)` of the colour difference `d`. -/
def weight (s : BitVec 32) (sh B : FVec F S32x1x512x512 .f32) : FVec F S32x1x512x512 .f32 :=
  mulf (splat s) (Host.exp (mulf (mulf (splat 0xC3480000#32) (subf sh B)) (subf sh B)))

/-- One tap added to the numerator. -/
def numStep (s : BitVec 32) (sh B num : FVec F S32x1x512x512 .f32) : FVec F S32x1x512x512 .f32 :=
  addf num (mulf (weight s sh B) sh)

/-- One tap added to the denominator. -/
def denStep (s : BitVec 32) (sh B den : FVec F S32x1x512x512 .f32) : FVec F S32x1x512x512 .f32 :=
  addf den (weight s sh B)

/-- The weighted sum of the thirteen shifted images, from zero, in the program's order. -/
def numer (B : FVec F S32x1x512x512 .f32) (P : FVec F S32x1x516x516 .f32) : FVec F S32x1x512x512 .f32 :=
  numStep 0x3F7FCB98#32 (shift13 P) B (numStep 0x3F7FE5CA#32 (shift12 P) B (numStep 0x3F7FF2E5#32 (shift11 P) B (numStep 0x3F7FE5CA#32 (shift10 P) B (numStep 0x3F7FCB98#32 (shift9 P) B (numStep 0x3F7FF2E5#32 (shift8 P) B (numStep 0x3F800000#32 (shift7 P) B (numStep 0x3F7FF2E5#32 (shift6 P) B (numStep 0x3F7FCB98#32 (shift5 P) B (numStep 0x3F7FE5CA#32 (shift4 P) B (numStep 0x3F7FF2E5#32 (shift3 P) B (numStep 0x3F7FE5CA#32 (shift2 P) B (numStep 0x3F7FCB98#32 (shift1 P) B (splat 0x00000000#32)))))))))))))

/-- The sum of the thirteen weights, from zero, in the program's order. -/
def denom (B : FVec F S32x1x512x512 .f32) (P : FVec F S32x1x516x516 .f32) : FVec F S32x1x512x512 .f32 :=
  denStep 0x3F7FCB98#32 (shift13 P) B (denStep 0x3F7FE5CA#32 (shift12 P) B (denStep 0x3F7FF2E5#32 (shift11 P) B (denStep 0x3F7FE5CA#32 (shift10 P) B (denStep 0x3F7FCB98#32 (shift9 P) B (denStep 0x3F7FF2E5#32 (shift8 P) B (denStep 0x3F800000#32 (shift7 P) B (denStep 0x3F7FF2E5#32 (shift6 P) B (denStep 0x3F7FCB98#32 (shift5 P) B (denStep 0x3F7FE5CA#32 (shift4 P) B (denStep 0x3F7FF2E5#32 (shift3 P) B (denStep 0x3F7FE5CA#32 (shift2 P) B (denStep 0x3F7FCB98#32 (shift1 P) B (splat 0x00000000#32)))))))))))))

/-- The reference's result array as a function of its argument array. -/
def result (x : FVec F S32x1x512x512 .f32) : FVec F S32x1x512x512 .f32 :=
  Host.divf (numer (blended x) (padded (blended x))) (denom (blended x) (padded (blended x)))

end Cert.ReferenceIdeal.RefSpec

end
-- ==== Proof.RefRunHead.lean ====
/-
  The stages before and after the taps, each read as one equation: after the stage, the buffer it is for holds the
  stage's function (RefSpec.lean) of what the buffers it reads held before it, and the buffers later stages read
  are unchanged. The halo is read in its four steps, each a function of the step before.
-/
import proofs.«157411_j11484742549760_2_alg».proof.Proof.RefOps
import proofs.«157411_j11484742549760_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The blend. -/

theorem blend_v11 (V : Valuation τ sig (Elt F)) :
    after opsBlend V (no_index (Proc.devRef .tc main_v11)) = RefSpec.blended (V (Proc.devRef .tc main_arg0)) := by
  unfold opsBlend
  after_results_simp
  rfl
theorem blend_arg0 (V : Valuation τ sig (Elt F)) :
    after opsBlend V (no_index (Proc.devRef .tc main_arg0)) = V (Proc.devRef .tc main_arg0) := by
  unfold opsBlend
  after_results_simp

/-! The halo's last three steps as functions of the step before (RefSpec.lean states them of the blend). -/

/-- Rows 510, 509 of a 514-row image reversed and put behind it. -/
def rowsAllOf (T : FVec F S32x1x514x512 .f32) : FVec F S32x1x516x512 .f32 :=
  concatenate S32x1x516x512 2
    [⟨S32x1x514x512, T⟩,
     ⟨S32x1x2x512, Host.reverse [2] (extractStridedSlice S32x1x2x512 ![0, 0, 511, 0] T slices_S32x1x514x512_S32x1x2x512_0_0_511_0)⟩]
    concatenates_S32x1x514x512_S32x1x2x512_S32x1x516x512_d2

/-- Columns 2, 1 of a 512-column image reversed and put in front of it. -/
def colsLeftOf (T : FVec F S32x1x516x512 .f32) : FVec F S32x1x516x514 .f32 :=
  concatenate S32x1x516x514 3
    [⟨S32x1x516x2, Host.reverse [3] (extractStridedSlice S32x1x516x2 ![0, 0, 0, 1] T slices_S32x1x516x512_S32x1x516x2_0_0_0_1)⟩,
     ⟨S32x1x516x512, T⟩] concatenates_S32x1x516x2_S32x1x516x512_S32x1x516x514_d3

/-- Columns 512, 511 of a 514-column image reversed and put behind it. -/
def paddedOf (T : FVec F S32x1x516x514 .f32) : FVec F S32x1x516x516 .f32 :=
  concatenate S32x1x516x516 3
    [⟨S32x1x516x514, T⟩,
     ⟨S32x1x516x2, Host.reverse [3] (extractStridedSlice S32x1x516x2 ![0, 0, 0, 511] T slices_S32x1x516x514_S32x1x516x2_0_0_0_511)⟩]
    concatenates_S32x1x516x514_S32x1x516x2_S32x1x516x516_d3

theorem rowsAll_eq (B : FVec F S32x1x512x512 .f32) : RefSpec.rowsAll B = rowsAllOf (RefSpec.rowsTop B) := rfl
theorem colsLeft_eq (B : FVec F S32x1x512x512 .f32) : RefSpec.colsLeft B = colsLeftOf (RefSpec.rowsAll B) := rfl
theorem padded_eq (B : FVec F S32x1x512x512 .f32) : RefSpec.padded B = paddedOf (RefSpec.colsLeft B) := rfl

theorem haloA_v3 (V : Valuation τ sig (Elt F)) :
    after opsHaloA V (no_index (Proc.devRef .tc main_call1_v3)) = RefSpec.rowsTop (V (Proc.devRef .tc main_v11)) := by
  unfold opsHaloA
  after_results_simp
  rfl
theorem haloA_v11 (V : Valuation τ sig (Elt F)) :
    after opsHaloA V (no_index (Proc.devRef .tc main_v11)) = V (Proc.devRef .tc main_v11) := by
  unfold opsHaloA
  after_results_simp
theorem haloA_arg0 (V : Valuation τ sig (Elt F)) :
    after opsHaloA V (no_index (Proc.devRef .tc main_arg0)) = V (Proc.devRef .tc main_arg0) := by
  unfold opsHaloA
  after_results_simp
theorem haloB_v7 (V : Valuation τ sig (Elt F)) :
    after opsHaloB V (no_index (Proc.devRef .tc main_call1_v7)) = rowsAllOf (V (Proc.devRef .tc main_call1_v3)) := by
  unfold opsHaloB
  after_results_simp
  rfl
theorem haloB_v11 (V : Valuation τ sig (Elt F)) :
    after opsHaloB V (no_index (Proc.devRef .tc main_v11)) = V (Proc.devRef .tc main_v11) := by
  unfold opsHaloB
  after_results_simp
theorem haloB_arg0 (V : Valuation τ sig (Elt F)) :
    after opsHaloB V (no_index (Proc.devRef .tc main_arg0)) = V (Proc.devRef .tc main_arg0) := by
  unfold opsHaloB
  after_results_simp
theorem haloC_v11' (V : Valuation τ sig (Elt F)) :
    after opsHaloC V (no_index (Proc.devRef .tc main_call1_v11)) = colsLeftOf (V (Proc.devRef .tc main_call1_v7)) := by
  unfold opsHaloC
  after_results_simp
  rfl
theorem haloC_v11 (V : Valuation τ sig (Elt F)) :
    after opsHaloC V (no_index (Proc.devRef .tc main_v11)) = V (Proc.devRef .tc main_v11) := by
  unfold opsHaloC
  after_results_simp
theorem haloC_arg0 (V : Valuation τ sig (Elt F)) :
    after opsHaloC V (no_index (Proc.devRef .tc main_arg0)) = V (Proc.devRef .tc main_arg0) := by
  unfold opsHaloC
  after_results_simp
theorem haloD_v12 (V : Valuation τ sig (Elt F)) :
    after opsHaloD V (no_index (Proc.devRef .tc main_v12)) = paddedOf (V (Proc.devRef .tc main_call1_v11)) := by
  unfold opsHaloD
  after_results_simp
  rfl
theorem haloD_v11 (V : Valuation τ sig (Elt F)) :
    after opsHaloD V (no_index (Proc.devRef .tc main_v11)) = V (Proc.devRef .tc main_v11) := by
  unfold opsHaloD
  after_results_simp
theorem haloD_arg0 (V : Valuation τ sig (Elt F)) :
    after opsHaloD V (no_index (Proc.devRef .tc main_arg0)) = V (Proc.devRef .tc main_arg0) := by
  unfold opsHaloD
  after_results_simp

/-- The four steps in a row: the halo image of the blend. -/
theorem halo_v12 (V : Valuation τ sig (Elt F)) :
    after opsHaloD (after opsHaloC (after opsHaloB (after opsHaloA V))) (no_index (Proc.devRef .tc main_v12)) = RefSpec.padded (V (Proc.devRef .tc main_v11)) := by
  simp only [haloD_v12, haloC_v11', haloB_v7, haloA_v3, padded_eq, colsLeft_eq, rowsAll_eq]
theorem halo_v11 (V : Valuation τ sig (Elt F)) :
    after opsHaloD (after opsHaloC (after opsHaloB (after opsHaloA V))) (no_index (Proc.devRef .tc main_v11)) = V (Proc.devRef .tc main_v11) := by
  simp only [haloD_v11, haloC_v11, haloB_v11, haloA_v11]
theorem halo_arg0 (V : Valuation τ sig (Elt F)) :
    after opsHaloD (after opsHaloC (after opsHaloB (after opsHaloA V))) (no_index (Proc.devRef .tc main_arg0)) = V (Proc.devRef .tc main_arg0) := by
  simp only [haloD_arg0, haloC_arg0, haloB_arg0, haloA_arg0]

/-! The two zeros. -/

theorem zero_v13 (V : Valuation τ sig (Elt F)) :
    after opsZero V (no_index (Proc.devRef .tc main_v13)) = RefSpec.splat 0x00000000#32 := by
  unfold opsZero
  after_results_simp
  rfl
theorem zero_v14 (V : Valuation τ sig (Elt F)) :
    after opsZero V (no_index (Proc.devRef .tc main_v14)) = RefSpec.splat 0x00000000#32 := by
  unfold opsZero
  after_results_simp
  rfl
theorem zero_v12 (V : Valuation τ sig (Elt F)) :
    after opsZero V (no_index (Proc.devRef .tc main_v12)) = V (Proc.devRef .tc main_v12) := by
  unfold opsZero
  after_results_simp
theorem zero_v11 (V : Valuation τ sig (Elt F)) :
    after opsZero V (no_index (Proc.devRef .tc main_v11)) = V (Proc.devRef .tc main_v11) := by
  unfold opsZero
  after_results_simp
theorem zero_arg0 (V : Valuation τ sig (Elt F)) :
    after opsZero V (no_index (Proc.devRef .tc main_arg0)) = V (Proc.devRef .tc main_arg0) := by
  unfold opsZero
  after_results_simp

/-! The quotient. -/

theorem div_v158 (V : Valuation τ sig (Elt F)) :
    after opsDiv V (no_index (Proc.devRef .tc main_v158)) = Host.divf (V (Proc.devRef .tc main_v156)) (V (Proc.devRef .tc main_v157)) := by
  unfold opsDiv
  after_results_simp
theorem div_arg0 (V : Valuation τ sig (Elt F)) :
    after opsDiv V (no_index (Proc.devRef .tc main_arg0)) = V (Proc.devRef .tc main_arg0) := by
  unfold opsDiv
  after_results_simp

end Cert.ReferenceIdeal.RefRun

end
-- ==== Proof.RefRunTapsA.lean ====
/-
  The taps, each read as two equations: after a tap's thirteen operations the two sums' new buffers hold one step
  (RefSpec.numStep, RefSpec.denStep) of what the halo image, the blend and the sums' previous buffers held before
  it, and the halo image, the blend and the argument are unchanged.
-/
import proofs.«157411_j11484742549760_2_alg».proof.Proof.RefOps
import proofs.«157411_j11484742549760_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Tap 1. -/

theorem tap1_num (V : Valuation τ sig (Elt F)) :
    after opsTap1 V (no_index (Proc.devRef .tc main_v24)) = RefSpec.numStep 0x3F7FCB98#32 (RefSpec.shift1 (V (Proc.devRef .tc main_v12))) (V (Proc.devRef .tc main_v11)) (V (Proc.devRef .tc main_v13)) := by
  unfold opsTap1
  after_results_simp
  rfl
theorem tap1_den (V : Valuation τ sig (Elt F)) :
    after opsTap1 V (no_index (Proc.devRef .tc main_v25)) = RefSpec.denStep 0x3F7FCB98#32 (RefSpec.shift1 (V (Proc.devRef .tc main_v12))) (V (Proc.devRef .tc main_v11)) (V (Proc.devRef .tc main_v14)) := by
  unfold opsTap1
  after_results_simp
  rfl
theorem tap1_v12 (V : Valuation τ sig (Elt F)) :
    after opsTap1 V (no_index (Proc.devRef .tc main_v12)) = V (Proc.devRef .tc main_v12) := by
  unfold opsTap1
  after_results_simp
theorem tap1_v11 (V : Valuation τ sig (Elt F)) :
    after opsTap1 V (no_index (Proc.devRef .tc main_v11)) = V (Proc.devRef .tc main_v11) := by
  unfold opsTap1
  after_results_simp
theorem tap1_arg0 (V : Valuation τ sig (Elt F)) :
    after opsTap1 V (no_index (Proc.devRef .tc main_arg0)) = V (Proc.devRef .tc main_arg0) := by
  unfold opsTap1
  after_results_simp

/-! Tap 2. -/

theorem tap2_num (V : Valuation τ sig (Elt F)) :
    after opsTap2 V (no_index (Proc.devRef .tc main_v35)) = RefSpec.numStep 0x3F7FE5CA#32 (RefSpec.shift2 (V (Proc.devRef .tc main_v12))) (V (Proc.devRef .tc main_v11)) (V (Proc.devRef .tc main_v24)) := by
  unfold opsTap2
  after_results_simp
  rfl
theorem tap2_den (V : Valuation τ sig (Elt F)) :
    after opsTap2 V (no_index (Proc.devRef .tc main_v36)) = RefSpec.denStep 0x3F7FE5CA#32 (RefSpec.shift2 (V (Proc.devRef .tc main_v12))) (V (Proc.devRef .tc main_v11)) (V (Proc.devRef .tc main_v25)) := by
  unfold opsTap2
  after_results_simp
  rfl
theorem tap2_v12 (V : Valuation τ sig (Elt F)) :
    after opsTap2 V (no_index (Proc.devRef .tc main_v12)) = V (Proc.devRef .tc main_v12) := by
  unfold opsTap2
  after_results_simp
theorem tap2_v11 (V : Valuation τ sig (Elt F)) :
    after opsTap2 V (no_index (Proc.devRef .tc main_v11)) = V (Proc.devRef .tc main_v11) := by
  unfold opsTap2
  after_results_simp
theorem tap2_arg0 (V : Valuation τ sig (Elt F)) :
    after opsTap2 V (no_index (Proc.devRef .tc main_arg0)) = V (Proc.devRef .tc main_arg0) := by
  unfold opsTap2
  after_results_simp

/-! Tap 3. -/

theorem tap3_num (V : Valuation τ sig (Elt F)) :
    after opsTap3 V (no_index (Proc.devRef .tc main_v46)) = RefSpec.numStep 0x3F7FF2E5#32 (RefSpec.shift3 (V (Proc.devRef .tc main_v12))) (V (Proc.devRef .tc main_v11)) (V (Proc.devRef .tc main_v35)) := by
  unfold opsTap3
  after_results_simp
  rfl
theorem tap3_den (V : Valuation τ sig (Elt F)) :
    after opsTap3 V (no_index (Proc.devRef .tc main_v47)) = RefSpec.denStep 0x3F7FF2E5#32 (RefSpec.shift3 (V (Proc.devRef .tc main_v12))) (V (Proc.devRef .tc main_v11)) (V (Proc.devRef .tc main_v36)) := by
  unfold opsTap3
  after_results_simp
  rfl
theorem tap3_v12 (V : Valuation τ sig (Elt F)) :
    after opsTap3 V (no_index (Proc.devRef .tc main_v12)) = V (Proc.devRef .tc main_v12) := by
  unfold opsTap3
  after_results_simp
theorem tap3_v11 (V : Valuation τ sig (Elt F)) :
    after opsTap3 V (no_index (Proc.devRef .tc main_v11)) = V (Proc.devRef .tc main_v11) := by
  unfold opsTap3
  after_results_simp
theorem tap3_arg0 (V : Valuation τ sig (Elt F)) :
    after opsTap3 V (no_index (Proc.devRef .tc main_arg0)) = V (Proc.devRef .tc main_arg0) := by
  unfold opsTap3
  after_results_simp

/-! Tap 4. -/

theorem tap4_num (V : Valuation τ sig (Elt F)) :
    after opsTap4 V (no_index (Proc.devRef .tc main_v57)) = RefSpec.numStep 0x3F7FE5CA#32 (RefSpec.shift4 (V (Proc.devRef .tc main_v12))) (V (Proc.devRef .tc main_v11)) (V (Proc.devRef .tc main_v46)) := by
  unfold opsTap4
  after_results_simp
  rfl
theorem tap4_den (V : Valuation τ sig (Elt F)) :
    after opsTap4 V (no_index (Proc.devRef .tc main_v58)) = RefSpec.denStep 0x3F7FE5CA#32 (RefSpec.shift4 (V (Proc.devRef .tc main_v12))) (V (Proc.devRef .tc main_v11)) (V (Proc.devRef .tc main_v47)) := by
  unfold opsTap4
  after_results_simp
  rfl
theorem tap4_v12 (V : Valuation τ sig (Elt F)) :
    after opsTap4 V (no_index (Proc.devRef .tc main_v12)) = V (Proc.devRef .tc main_v12) := by
  unfold opsTap4
  after_results_simp
theorem tap4_v11 (V : Valuation τ sig (Elt F)) :
    after opsTap4 V (no_index (Proc.devRef .tc main_v11)) = V (Proc.devRef .tc main_v11) := by
  unfold opsTap4
  after_results_simp
theorem tap4_arg0 (V : Valuation τ sig (Elt F)) :
    after opsTap4 V (no_index (Proc.devRef .tc main_arg0)) = V (Proc.devRef .tc main_arg0) := by
  unfold opsTap4
  after_results_simp

/-! Tap 5. -/

theorem tap5_num (V : Valuation τ sig (Elt F)) :
    after opsTap5 V (no_index (Proc.devRef .tc main_v68)) = RefSpec.numStep 0x3F7FCB98#32 (RefSpec.shift5 (V (Proc.devRef .tc main_v12))) (V (Proc.devRef .tc main_v11)) (V (Proc.devRef .tc main_v57)) := by
  unfold opsTap5
  after_results_simp
  rfl
theorem tap5_den (V : Valuation τ sig (Elt F)) :
    after opsTap5 V (no_index (Proc.devRef .tc main_v69)) = RefSpec.denStep 0x3F7FCB98#32 (RefSpec.shift5 (V (Proc.devRef .tc main_v12))) (V (Proc.devRef .tc main_v11)) (V (Proc.devRef .tc main_v58)) := by
  unfold opsTap5
  after_results_simp
  rfl
theorem tap5_v12 (V : Valuation τ sig (Elt F)) :
    after opsTap5 V (no_index (Proc.devRef .tc main_v12)) = V (Proc.devRef .tc main_v12) := by
  unfold opsTap5
  after_results_simp
theorem tap5_v11 (V : Valuation τ sig (Elt F)) :
    after opsTap5 V (no_index (Proc.devRef .tc main_v11)) = V (Proc.devRef .tc main_v11) := by
  unfold opsTap5
  after_results_simp
theorem tap5_arg0 (V : Valuation τ sig (Elt F)) :
    after opsTap5 V (no_index (Proc.devRef .tc main_arg0)) = V (Proc.devRef .tc main_arg0) := by
  unfold opsTap5
  after_results_simp

end Cert.ReferenceIdeal.RefRun

end
-- ==== Proof.RefRunTapsB.lean ====
/-
  The taps, each read as two equations: after a tap's thirteen operations the two sums' new buffers hold one step
  (RefSpec.numStep, RefSpec.denStep) of what the halo image, the blend and the sums' previous buffers held before
  it, and the halo image, the blend and the argument are unchanged.
-/
import proofs.«157411_j11484742549760_2_alg».proof.Proof.RefOps
import proofs.«157411_j11484742549760_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Tap 6. -/

theorem tap6_num (V : Valuation τ sig (Elt F)) :
    after opsTap6 V (no_index (Proc.devRef .tc main_v79)) = RefSpec.numStep 0x3F7FF2E5#32 (RefSpec.shift6 (V (Proc.devRef .tc main_v12))) (V (Proc.devRef .tc main_v11)) (V (Proc.devRef .tc main_v68)) := by
  unfold opsTap6
  after_results_simp
  rfl
theorem tap6_den (V : Valuation τ sig (Elt F)) :
    after opsTap6 V (no_index (Proc.devRef .tc main_v80)) = RefSpec.denStep 0x3F7FF2E5#32 (RefSpec.shift6 (V (Proc.devRef .tc main_v12))) (V (Proc.devRef .tc main_v11)) (V (Proc.devRef .tc main_v69)) := by
  unfold opsTap6
  after_results_simp
  rfl
theorem tap6_v12 (V : Valuation τ sig (Elt F)) :
    after opsTap6 V (no_index (Proc.devRef .tc main_v12)) = V (Proc.devRef .tc main_v12) := by
  unfold opsTap6
  after_results_simp
theorem tap6_v11 (V : Valuation τ sig (Elt F)) :
    after opsTap6 V (no_index (Proc.devRef .tc main_v11)) = V (Proc.devRef .tc main_v11) := by
  unfold opsTap6
  after_results_simp
theorem tap6_arg0 (V : Valuation τ sig (Elt F)) :
    after opsTap6 V (no_index (Proc.devRef .tc main_arg0)) = V (Proc.devRef .tc main_arg0) := by
  unfold opsTap6
  after_results_simp

/-! Tap 7. -/

theorem tap7_num (V : Valuation τ sig (Elt F)) :
    after opsTap7 V (no_index (Proc.devRef .tc main_v90)) = RefSpec.numStep 0x3F800000#32 (RefSpec.shift7 (V (Proc.devRef .tc main_v12))) (V (Proc.devRef .tc main_v11)) (V (Proc.devRef .tc main_v79)) := by
  unfold opsTap7
  after_results_simp
  rfl
theorem tap7_den (V : Valuation τ sig (Elt F)) :
    after opsTap7 V (no_index (Proc.devRef .tc main_v91)) = RefSpec.denStep 0x3F800000#32 (RefSpec.shift7 (V (Proc.devRef .tc main_v12))) (V (Proc.devRef .tc main_v11)) (V (Proc.devRef .tc main_v80)) := by
  unfold opsTap7
  after_results_simp
  rfl
theorem tap7_v12 (V : Valuation τ sig (Elt F)) :
    after opsTap7 V (no_index (Proc.devRef .tc main_v12)) = V (Proc.devRef .tc main_v12) := by
  unfold opsTap7
  after_results_simp
theorem tap7_v11 (V : Valuation τ sig (Elt F)) :
    after opsTap7 V (no_index (Proc.devRef .tc main_v11)) = V (Proc.devRef .tc main_v11) := by
  unfold opsTap7
  after_results_simp
theorem tap7_arg0 (V : Valuation τ sig (Elt F)) :
    after opsTap7 V (no_index (Proc.devRef .tc main_arg0)) = V (Proc.devRef .tc main_arg0) := by
  unfold opsTap7
  after_results_simp

/-! Tap 8. -/

theorem tap8_num (V : Valuation τ sig (Elt F)) :
    after opsTap8 V (no_index (Proc.devRef .tc main_v101)) = RefSpec.numStep 0x3F7FF2E5#32 (RefSpec.shift8 (V (Proc.devRef .tc main_v12))) (V (Proc.devRef .tc main_v11)) (V (Proc.devRef .tc main_v90)) := by
  unfold opsTap8
  after_results_simp
  rfl
theorem tap8_den (V : Valuation τ sig (Elt F)) :
    after opsTap8 V (no_index (Proc.devRef .tc main_v102)) = RefSpec.denStep 0x3F7FF2E5#32 (RefSpec.shift8 (V (Proc.devRef .tc main_v12))) (V (Proc.devRef .tc main_v11)) (V (Proc.devRef .tc main_v91)) := by
  unfold opsTap8
  after_results_simp
  rfl
theorem tap8_v12 (V : Valuation τ sig (Elt F)) :
    after opsTap8 V (no_index (Proc.devRef .tc main_v12)) = V (Proc.devRef .tc main_v12) := by
  unfold opsTap8
  after_results_simp
theorem tap8_v11 (V : Valuation τ sig (Elt F)) :
    after opsTap8 V (no_index (Proc.devRef .tc main_v11)) = V (Proc.devRef .tc main_v11) := by
  unfold opsTap8
  after_results_simp
theorem tap8_arg0 (V : Valuation τ sig (Elt F)) :
    after opsTap8 V (no_index (Proc.devRef .tc main_arg0)) = V (Proc.devRef .tc main_arg0) := by
  unfold opsTap8
  after_results_simp

/-! Tap 9. -/

theorem tap9_num (V : Valuation τ sig (Elt F)) :
    after opsTap9 V (no_index (Proc.devRef .tc main_v112)) = RefSpec.numStep 0x3F7FCB98#32 (RefSpec.shift9 (V (Proc.devRef .tc main_v12))) (V (Proc.devRef .tc main_v11)) (V (Proc.devRef .tc main_v101)) := by
  unfold opsTap9
  after_results_simp
  rfl
theorem tap9_den (V : Valuation τ sig (Elt F)) :
    after opsTap9 V (no_index (Proc.devRef .tc main_v113)) = RefSpec.denStep 0x3F7FCB98#32 (RefSpec.shift9 (V (Proc.devRef .tc main_v12))) (V (Proc.devRef .tc main_v11)) (V (Proc.devRef .tc main_v102)) := by
  unfold opsTap9
  after_results_simp
  rfl
theorem tap9_v12 (V : Valuation τ sig (Elt F)) :
    after opsTap9 V (no_index (Proc.devRef .tc main_v12)) = V (Proc.devRef .tc main_v12) := by
  unfold opsTap9
  after_results_simp
theorem tap9_v11 (V : Valuation τ sig (Elt F)) :
    after opsTap9 V (no_index (Proc.devRef .tc main_v11)) = V (Proc.devRef .tc main_v11) := by
  unfold opsTap9
  after_results_simp
theorem tap9_arg0 (V : Valuation τ sig (Elt F)) :
    after opsTap9 V (no_index (Proc.devRef .tc main_arg0)) = V (Proc.devRef .tc main_arg0) := by
  unfold opsTap9
  after_results_simp

end Cert.ReferenceIdeal.RefRun

end
-- ==== Proof.RefRunTapsC.lean ====
/-
  The taps, each read as two equations: after a tap's thirteen operations the two sums' new buffers hold one step
  (RefSpec.numStep, RefSpec.denStep) of what the halo image, the blend and the sums' previous buffers held before
  it, and the halo image, the blend and the argument are unchanged.
-/
import proofs.«157411_j11484742549760_2_alg».proof.Proof.RefOps
import proofs.«157411_j11484742549760_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Tap 10. -/

theorem tap10_num (V : Valuation τ sig (Elt F)) :
    after opsTap10 V (no_index (Proc.devRef .tc main_v123)) = RefSpec.numStep 0x3F7FE5CA#32 (RefSpec.shift10 (V (Proc.devRef .tc main_v12))) (V (Proc.devRef .tc main_v11)) (V (Proc.devRef .tc main_v112)) := by
  unfold opsTap10
  after_results_simp
  rfl
theorem tap10_den (V : Valuation τ sig (Elt F)) :
    after opsTap10 V (no_index (Proc.devRef .tc main_v124)) = RefSpec.denStep 0x3F7FE5CA#32 (RefSpec.shift10 (V (Proc.devRef .tc main_v12))) (V (Proc.devRef .tc main_v11)) (V (Proc.devRef .tc main_v113)) := by
  unfold opsTap10
  after_results_simp
  rfl
theorem tap10_v12 (V : Valuation τ sig (Elt F)) :
    after opsTap10 V (no_index (Proc.devRef .tc main_v12)) = V (Proc.devRef .tc main_v12) := by
  unfold opsTap10
  after_results_simp
theorem tap10_v11 (V : Valuation τ sig (Elt F)) :
    after opsTap10 V (no_index (Proc.devRef .tc main_v11)) = V (Proc.devRef .tc main_v11) := by
  unfold opsTap10
  after_results_simp
theorem tap10_arg0 (V : Valuation τ sig (Elt F)) :
    after opsTap10 V (no_index (Proc.devRef .tc main_arg0)) = V (Proc.devRef .tc main_arg0) := by
  unfold opsTap10
  after_results_simp

/-! Tap 11. -/

theorem tap11_num (V : Valuation τ sig (Elt F)) :
    after opsTap11 V (no_index (Proc.devRef .tc main_v134)) = RefSpec.numStep 0x3F7FF2E5#32 (RefSpec.shift11 (V (Proc.devRef .tc main_v12))) (V (Proc.devRef .tc main_v11)) (V (Proc.devRef .tc main_v123)) := by
  unfold opsTap11
  after_results_simp
  rfl
theorem tap11_den (V : Valuation τ sig (Elt F)) :
    after opsTap11 V (no_index (Proc.devRef .tc main_v135)) = RefSpec.denStep 0x3F7FF2E5#32 (RefSpec.shift11 (V (Proc.devRef .tc main_v12))) (V (Proc.devRef .tc main_v11)) (V (Proc.devRef .tc main_v124)) := by
  unfold opsTap11
  after_results_simp
  rfl
theorem tap11_v12 (V : Valuation τ sig (Elt F)) :
    after opsTap11 V (no_index (Proc.devRef .tc main_v12)) = V (Proc.devRef .tc main_v12) := by
  unfold opsTap11
  after_results_simp
theorem tap11_v11 (V : Valuation τ sig (Elt F)) :
    after opsTap11 V (no_index (Proc.devRef .tc main_v11)) = V (Proc.devRef .tc main_v11) := by
  unfold opsTap11
  after_results_simp
theorem tap11_arg0 (V : Valuation τ sig (Elt F)) :
    after opsTap11 V (no_index (Proc.devRef .tc main_arg0)) = V (Proc.devRef .tc main_arg0) := by
  unfold opsTap11
  after_results_simp

/-! Tap 12. -/

theorem tap12_num (V : Valuation τ sig (Elt F)) :
    after opsTap12 V (no_index (Proc.devRef .tc main_v145)) = RefSpec.numStep 0x3F7FE5CA#32 (RefSpec.shift12 (V (Proc.devRef .tc main_v12))) (V (Proc.devRef .tc main_v11)) (V (Proc.devRef .tc main_v134)) := by
  unfold opsTap12
  after_results_simp
  rfl
theorem tap12_den (V : Valuation τ sig (Elt F)) :
    after opsTap12 V (no_index (Proc.devRef .tc main_v146)) = RefSpec.denStep 0x3F7FE5CA#32 (RefSpec.shift12 (V (Proc.devRef .tc main_v12))) (V (Proc.devRef .tc main_v11)) (V (Proc.devRef .tc main_v135)) := by
  unfold opsTap12
  after_results_simp
  rfl
theorem tap12_v12 (V : Valuation τ sig (Elt F)) :
    after opsTap12 V (no_index (Proc.devRef .tc main_v12)) = V (Proc.devRef .tc main_v12) := by
  unfold opsTap12
  after_results_simp
theorem tap12_v11 (V : Valuation τ sig (Elt F)) :
    after opsTap12 V (no_index (Proc.devRef .tc main_v11)) = V (Proc.devRef .tc main_v11) := by
  unfold opsTap12
  after_results_simp
theorem tap12_arg0 (V : Valuation τ sig (Elt F)) :
    after opsTap12 V (no_index (Proc.devRef .tc main_arg0)) = V (Proc.devRef .tc main_arg0) := by
  unfold opsTap12
  after_results_simp

/-! Tap 13. -/

theorem tap13_num (V : Valuation τ sig (Elt F)) :
    after opsTap13 V (no_index (Proc.devRef .tc main_v156)) = RefSpec.numStep 0x3F7FCB98#32 (RefSpec.shift13 (V (Proc.devRef .tc main_v12))) (V (Proc.devRef .tc main_v11)) (V (Proc.devRef .tc main_v145)) := by
  unfold opsTap13
  after_results_simp
  rfl
theorem tap13_den (V : Valuation τ sig (Elt F)) :
    after opsTap13 V (no_index (Proc.devRef .tc main_v157)) = RefSpec.denStep 0x3F7FCB98#32 (RefSpec.shift13 (V (Proc.devRef .tc main_v12))) (V (Proc.devRef .tc main_v11)) (V (Proc.devRef .tc main_v146)) := by
  unfold opsTap13
  after_results_simp
  rfl
theorem tap13_v12 (V : Valuation τ sig (Elt F)) :
    after opsTap13 V (no_index (Proc.devRef .tc main_v12)) = V (Proc.devRef .tc main_v12) := by
  unfold opsTap13
  after_results_simp
theorem tap13_v11 (V : Valuation τ sig (Elt F)) :
    after opsTap13 V (no_index (Proc.devRef .tc main_v11)) = V (Proc.devRef .tc main_v11) := by
  unfold opsTap13
  after_results_simp
theorem tap13_arg0 (V : Valuation τ sig (Elt F)) :
    after opsTap13 V (no_index (Proc.devRef .tc main_arg0)) = V (Proc.devRef .tc main_arg0) := by
  unfold opsTap13
  after_results_simp

end Cert.ReferenceIdeal.RefRun

end
-- ==== Proof.RefRun.lean ====
/-
  The reference program's run: on every device, from any memory with zero counters, every weakly fair execution
  of @main terminates with the result buffer at RefSpec.result of the argument array and the argument unchanged.
  The operations' fold is read stage by stage (RefRunHead.lean, RefRunTaps*.lean): each stage's equation rewrites
  the buffers the next one reads, the halo image and the blend staying folded as the stage functions' values.
-/
import proofs.«157411_j11484742549760_2_alg».proof.Proof.RefOpsFacts
import proofs.«157411_j11484742549760_2_alg».proof.Proof.RefOpsMain
import proofs.«157411_j11484742549760_2_alg».proof.Proof.RefRunHead
import proofs.«157411_j11484742549760_2_alg».proof.Proof.RefRunTapsA
import proofs.«157411_j11484742549760_2_alg».proof.Proof.RefRunTapsB
import proofs.«157411_j11484742549760_2_alg».proof.Proof.RefRunTapsC
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffer after all the operations: the quotient of the two sums over the halo of the blend. -/
theorem after_ops_v158 (V : Valuation τ sig (Elt F)) :
    after ops V (Proc.devRef .tc main_v158) = RefSpec.result (V (Proc.devRef .tc main_arg0)) := by
  simp only [ops, after_app, div_v158, tap13_num, tap13_den, tap13_v12, tap13_v11, tap12_num, tap12_den, tap12_v12, tap12_v11, tap11_num,
    tap11_den, tap11_v12, tap11_v11, tap10_num, tap10_den, tap10_v12, tap10_v11, tap9_num, tap9_den, tap9_v12,
    tap9_v11, tap8_num, tap8_den, tap8_v12, tap8_v11, tap7_num, tap7_den, tap7_v12, tap7_v11, tap6_num, tap6_den,
    tap6_v12, tap6_v11, tap5_num, tap5_den, tap5_v12, tap5_v11, tap4_num, tap4_den, tap4_v12, tap4_v11, tap3_num,
    tap3_den, tap3_v12, tap3_v11, tap2_num, tap2_den, tap2_v12, tap2_v11, tap1_num, tap1_den, tap1_v12, tap1_v11,
    zero_v13, zero_v14, zero_v12, zero_v11, halo_v12, halo_v11, blend_v11]
  rfl

/-- No operation writes the argument. -/
theorem after_ops_arg0 (V : Valuation τ sig (Elt F)) :
    after ops V (Proc.devRef .tc main_arg0) = V (Proc.devRef .tc main_arg0) := by
  simp only [ops, after_app, div_arg0, tap13_arg0, tap12_arg0, tap11_arg0, tap10_arg0, tap9_arg0, tap8_arg0, tap7_arg0, tap6_arg0,
    tap5_arg0, tap4_arg0, tap3_arg0, tap2_arg0, tap1_arg0, zero_arg0, halo_arg0, blend_arg0]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result at `RefSpec.result` of the argument's launch contents and the argument
    unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v158) = Cert.ReferenceIdeal.RefSpec.result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v158).trans (after_ops_v158 _), (h c main_arg0).trans (after_ops_arg0 _)⟩)
    (run_seq scopedRefs_eq scopedSems_eq defs main (fun _ => ops) main_eq (fun _ => ops_sub) m ρ (fun _ => ops_fresh))

/-- The same at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v158) = Cert.ReferenceIdeal.RefSpec.result (F := Ideal) (m ((c.tc : Thread nD τ).loc main_arg0))
      ∧ r.2.mem ((c.tc : Thread nD τ).loc main_arg0) = m ((c.tc : Thread nD τ).loc main_arg0) :=
  run_gen m ρ

end Cert.ReferenceIdeal.RefRun

end
-- ==== Proof.LibPowSqrt.lean ====
/-
  Over the extended reals, a nonnegative base raised to the power three halves is the base times its square
  root — the top element included —, and the f32 words of 1.5, 1.0 and 1e-6 as the numbers they denote.
-/
import Idealize.ShloMosaic.PureOps.Ideal

noncomputable section

namespace Cert.LibPowSqrt

open Idealize.ShloMosaic

/-- The f32 word `0x3FC00000` denotes the real number 3/2. -/
theorem ofBits_three_halves : Ideal.ofBits .f32 0x3FC00000#32 = ((3 / 2 : ℝ) : EReal) := by
  simp [Ideal.ofBits, Ideal.ieee, -EReal.coe_mul]; norm_num

/-- The f32 word `0x3F800000` denotes 1. -/
theorem ofBits_one : Ideal.ofBits .f32 0x3F800000#32 = 1 := by
  simp [Ideal.ofBits, Ideal.ieee, -EReal.coe_mul]; norm_num

/-- The f32 word `0x358637BD` (the float nearest to 1e-6) denotes a nonnegative number. -/
theorem ofBits_millionth_nonneg : (0 : EReal) ≤ Ideal.ofBits .f32 0x358637BD#32 := by
  simp [Ideal.ofBits, Ideal.ieee, -EReal.coe_mul]

/-- On the reals: `r ^ (3/2) = r · √r` for `0 ≤ r` (at `0` both sides vanish; above it the exponents add). -/
theorem rpow_three_halves (r : ℝ) (hr : 0 ≤ r) : Real.rpow r (3 / 2) = r * Real.sqrt r := by
  show r ^ (3 / 2 : ℝ) = r * Real.sqrt r
  rw [Real.sqrt_eq_rpow]
  rcases hr.eq_or_lt with h | h
  · subst h; simp
  · rw [show (3 / 2 : ℝ) = 1 + 1 / 2 by norm_num, Real.rpow_add h, Real.rpow_one]

/-- On the extended reals: `c ^ (3/2) = c · √c` for every `0 ≤ c`; at `⊤` both sides are `⊤`. -/
theorem pow_three_halves (c : EReal) (hc : 0 ≤ c) :
    Ideal.pow c ((3 / 2 : ℝ) : EReal) = c * Ideal.sqrt c := by
  induction c using EReal.rec with
  | bot => exact absurd hc (by simp)
  | top => simp
  | coe r =>
    have hr : 0 ≤ r := EReal.coe_nonneg.mp hc
    rw [Ideal.pow_coe_coe, Ideal.sqrt_coe, if_neg (not_lt.mpr hr), ← EReal.coe_mul, rpow_three_halves r hr]

/-- The same with the exponent spelt as the f32 word of 1.5. -/
theorem pow_word_three_halves (c : EReal) (hc : 0 ≤ c) :
    Ideal.pow c (Ideal.ofBits .f32 0x3FC00000#32) = c * Ideal.sqrt c := by
  rw [ofBits_three_halves]; exact pow_three_halves c hc

/-- A value clipped from below by a nonnegative bound and from above by a nonnegative bound is nonnegative. -/
theorem clip_nonneg {lo hi : EReal} (hlo : 0 ≤ lo) (hhi : 0 ≤ hi) (y : EReal) : 0 ≤ min hi (max lo y) :=
  le_min hhi (le_trans hlo (le_max_left lo y))

end Cert.LibPowSqrt

end
-- ==== Proof.Pixel.lean ====
/-
  One pixel of the filter, on the extended reals. A pixel `x` is clipped to `c = min 1 (max 1e-6 ((x + 1) / 2))` and
  blended to `0.6 c + 0.4 c^1.5` — the power written either as `c · √c` or as `c ^ 1.5`, the same number because `c ≥ 0`.
  The blended image gets a reflected halo of width two (row `i` of the halo image is row `2 - i`, `i - 2` or `1024 - i` of
  the image: rows 2, 1, 0 … 511, 510, 509; the same for columns), and the output pixel is the quotient of the weighted sum of the
  thirteen halo pixels of the radius-2 disc around it by the sum of their weights, a tap's weight being its spatial weight
  times `exp (-200 d²)` of its difference `d` from the centre pixel; both sums are taken from zero in one fixed order.
-/
import Idealize.ShloMosaic.PureOps.Ideal
import proofs.«157411_j11484742549760_2_alg».proof.Proof.LibPowSqrt

noncomputable section

namespace Cert.Pixel

open Idealize.ShloMosaic

/-- `min 1 (max 1e-6 ((x + 1) / 2))`. -/
def clip (x : EReal) : EReal :=
  min (Ideal.ofBits .f32 0x3F800000#32) (max (Ideal.ofBits .f32 0x358637BD#32)
    (Ideal.div (x + Ideal.ofBits .f32 0x3F800000#32) (Ideal.ofBits .f32 0x40000000#32)))

/-- The clipped pixel is nonnegative, whatever `x` is. -/
theorem clip_nonneg (x : EReal) : 0 ≤ clip x :=
  Cert.LibPowSqrt.clip_nonneg Cert.LibPowSqrt.ofBits_millionth_nonneg
    (by rw [Cert.LibPowSqrt.ofBits_one]; exact zero_le_one) _

/-- The blend with the power written `c · √c`. -/
def blendSqrt (x : EReal) : EReal :=
  Ideal.ofBits .f32 0x3F19999A#32 * clip x + Ideal.ofBits .f32 0x3ECCCCCD#32 * (clip x * Ideal.sqrt (clip x))

/-- The blend with the power written `c ^ 1.5`. -/
def blendPow (x : EReal) : EReal :=
  Ideal.ofBits .f32 0x3F19999A#32 * clip x + Ideal.ofBits .f32 0x3ECCCCCD#32 * Ideal.pow (clip x) (Ideal.ofBits .f32 0x3FC00000#32)

/-- The two blends are one function: `c ^ 1.5 = c · √c` for the nonnegative `c`. -/
theorem blendPow_eq (x : EReal) : blendPow x = blendSqrt x := by
  unfold blendPow blendSqrt
  rw [Cert.LibPowSqrt.pow_word_three_halves _ (clip_nonneg x)]

/-- A tap's weight: spatial weight `s` times `exp (-200 d²)`, `d` the tap's difference from the centre. -/
def weight (s : BitVec 32) (sh img : EReal) : EReal :=
  Ideal.ofBits .f32 s * Ideal.exp (Ideal.ofBits .f32 0xC3480000#32 * (sh - img) * (sh - img))

/-- One tap added to the numerator. -/
def numStep (s : BitVec 32) (sh img num : EReal) : EReal := num + weight s sh img * sh

/-- One tap added to the denominator. -/
def denStep (s : BitVec 32) (sh img den : EReal) : EReal := den + weight s sh img

/-- The quotient for a centre pixel `img` and its thirteen taps, in the fixed order of the sums. -/
def bilateral (img a1 a2 a3 a4 a5 a6 a7 a8 a9 a10 a11 a12 a13 : EReal) : EReal :=
  Ideal.div
    (numStep 0x3F7FCB98#32 a13 img (numStep 0x3F7FE5CA#32 a12 img (numStep 0x3F7FF2E5#32 a11 img (numStep 0x3F7FE5CA#32 a10 img (numStep 0x3F7FCB98#32 a9 img (numStep 0x3F7FF2E5#32 a8 img (numStep 0x3F800000#32 a7 img (numStep 0x3F7FF2E5#32 a6 img (numStep 0x3F7FCB98#32 a5 img (numStep 0x3F7FE5CA#32 a4 img (numStep 0x3F7FF2E5#32 a3 img (numStep 0x3F7FE5CA#32 a2 img (numStep 0x3F7FCB98#32 a1 img (Ideal.ofBits .f32 0x00000000#32))))))))))))))
    (denStep 0x3F7FCB98#32 a13 img (denStep 0x3F7FE5CA#32 a12 img (denStep 0x3F7FF2E5#32 a11 img (denStep 0x3F7FE5CA#32 a10 img (denStep 0x3F7FCB98#32 a9 img (denStep 0x3F7FF2E5#32 a8 img (denStep 0x3F800000#32 a7 img (denStep 0x3F7FF2E5#32 a6 img (denStep 0x3F7FCB98#32 a5 img (denStep 0x3F7FE5CA#32 a4 img (denStep 0x3F7FF2E5#32 a3 img (denStep 0x3F7FE5CA#32 a2 img (denStep 0x3F7FCB98#32 a1 img (Ideal.ofBits .f32 0x00000000#32))))))))))))))

/-- Row (or column) `i` of the halo image, as a row of the image: 2, 1, 0 … 511, 510, 509. -/
def mirror (i : Fin 516) : Fin 512 :=
  ⟨if i.val < 2 then 2 - i.val else if i.val < 514 then i.val - 2 else 1024 - i.val, by split_ifs <;> omega⟩

/-- The halo image at (p + dy, q + dx), read off the image. -/
def moved (img : Fin 512 → Fin 512 → EReal) (dy dx : Fin 5) (p q : Fin 512) : EReal :=
  img (mirror ⟨p.val + dy.val, by omega⟩) (mirror ⟨q.val + dx.val, by omega⟩)

/-- The filtered image at (p, q). -/
def filter (img : Fin 512 → Fin 512 → EReal) (p q : Fin 512) : EReal :=
  bilateral (img p q) (moved img 0 2 p q) (moved img 1 1 p q) (moved img 1 2 p q) (moved img 1 3 p q) (moved img 2 0 p q) (moved img 2 1 p q) (moved img 2 2 p q) (moved img 2 3 p q) (moved img 2 4 p q) (moved img 3 1 p q) (moved img 3 2 p q) (moved img 3 3 p q) (moved img 4 2 p q)

end Cert.Pixel

end
-- ==== Proof.KHalo.lean ====
/-
  The kernel's halo image read at an index: the body lays rows 2 and 1 of the blended image above it and rows 510 and
  509 below it, then does the same with the columns of the result; so the halo image at (i, j) is the image at the
  mirrored row and column.
-/
import proofs.«157411_j11484742549760_2_alg».proof.Proof.Gen.KernelIdeal.Skeleton
import proofs.«157411_j11484742549760_2_alg».proof.Proof.Pixel
import Idealize.ShloMosaic.Lib.Pipeline.Value
import Idealize.ShloMosaic.Lib.ValueIdx

noncomputable section

namespace Cert.KernelIdeal.KHalo

open Cert.KernelIdeal Cert.KernelIdeal.Gen Idealize.ShloMosaic Idealize.ShloMosaic.ValueIdx Idealize.ShloMosaic.Pipeline

variable {α : Type}

/-- Rows 2, 1, the image, rows 510, 509: 516 rows. -/
def rows (B : S512x512.Idx → α) : S516x512.Idx → α :=
  concatenate S516x512 0
    [⟨S1x512, extractStridedSlice S1x512 ![2, 0] B slices_S512x512_o2_0_S1x512⟩,
     ⟨S1x512, extractStridedSlice S1x512 ![1, 0] B slices_S512x512_o1_0_S1x512⟩,
     ⟨S512x512, B⟩,
     ⟨S1x512, extractStridedSlice S1x512 ![510, 0] B slices_S512x512_o510_0_S1x512⟩,
     ⟨S1x512, extractStridedSlice S1x512 ![509, 0] B slices_S512x512_o509_0_S1x512⟩]
    concatenates_S1x512_S1x512_S512x512_S1x512_S1x512_S516x512_d0

/-- Columns 2, 1, the rows, columns 510, 509: 516 columns. -/
def halo (B : S512x512.Idx → α) : S516x516.Idx → α :=
  concatenate S516x516 1
    [⟨S516x1, extractStridedSlice S516x1 ![0, 2] (rows B) slices_S516x512_o0_2_S516x1⟩,
     ⟨S516x1, extractStridedSlice S516x1 ![0, 1] (rows B) slices_S516x512_o0_1_S516x1⟩,
     ⟨S516x512, rows B⟩,
     ⟨S516x1, extractStridedSlice S516x1 ![0, 510] (rows B) slices_S516x512_o0_510_S516x1⟩,
     ⟨S516x1, extractStridedSlice S516x1 ![0, 509] (rows B) slices_S516x512_o0_509_S516x1⟩]
    concatenates_S516x1_S516x1_S516x512_S516x1_S516x1_S516x516_d1

/-- The body's halo value is `halo` of its blended image. -/
theorem pay3_eq (x0 : Vec Ideal S1x512x512 .f32) : k0_pay3 (F := Ideal) x0 = halo (k0_pay2 (F := Ideal) x0) := rfl

theorem mirror_val (i : Fin 516) :
    (Cert.Pixel.mirror i).val = if i.val < 2 then 2 - i.val else if i.val < 514 then i.val - 2 else 1024 - i.val := rfl

/-- One row of the image cut out and read: row `r`. -/
theorem row_apply (B : S512x512.Idx → α) (off : Fin 2 → Nat) (h : S512x512.Slices off S1x512) (q : Fin 512) (r : Fin 512)
    (h0 : off 0 = r.val) (h1 : off 1 = 0) :
    extractStridedSlice S1x512 off B h (ix2 (0 : Fin 1) q) = B (ix2 r q) :=
  extractStridedSlice_apply off B h (ix2 (0 : Fin 1) q) (ix2 r q) (fun a => by
    fin_cases a
    · show r.val = off 0 + 0; omega
    · show q.val = off 1 + q.val; omega)

/-- The rows at (i, q): the image at the mirrored row. -/
theorem rows_apply (B : S512x512.Idx → α) (i : Fin 516) (q : Fin 512) :
    rows B (ix2 i q) = B (ix2 (Cert.Pixel.mirror i) q) := by
  unfold rows
  have hm := mirror_val i
  rcases Nat.lt_or_ge i.val 1 with c0 | c0
  · -- row 0 of the halo is row 2
    refine (concatenate_apply_piece (0 : Fin 2) _ _ (ix2 i q) 0 ?_ S1x512 (extractStridedSlice S1x512 ![2, 0] B slices_S512x512_o2_0_S1x512) ?_ rfl 0 ?_ (ix2 (0 : Fin 1) q) ?_ ?_).trans ?_
    · simp
    · rfl
    · rfl
    · intro b hb; fin_cases b
      · exact absurd rfl hb
      · rfl
    · show 0 + (0 : ℕ) = i.val; omega
    · exact row_apply B _ _ q _ (by show 2 = _; rw [hm]; split_ifs <;> omega) rfl
  rcases Nat.lt_or_ge i.val 2 with c1 | c1
  · -- row 1 of the halo is row 1
    refine (concatenate_apply_piece (0 : Fin 2) _ _ (ix2 i q) 1 ?_ S1x512 (extractStridedSlice S1x512 ![1, 0] B slices_S512x512_o1_0_S1x512) ?_ rfl 1 ?_ (ix2 (0 : Fin 1) q) ?_ ?_).trans ?_
    · simp
    · rfl
    · rfl
    · intro b hb; fin_cases b
      · exact absurd rfl hb
      · rfl
    · show 1 + (0 : ℕ) = i.val; omega
    · exact row_apply B _ _ q _ (by show 1 = _; rw [hm]; split_ifs <;> omega) rfl
  rcases Nat.lt_or_ge i.val 514 with c2 | c2
  · -- rows 2 … 513 of the halo are the image
    refine (concatenate_apply_piece (0 : Fin 2) _ _ (ix2 i q) 2 ?_ S512x512 B ?_ rfl 2 ?_ (ix2 (Cert.Pixel.mirror i) q) ?_ ?_).trans ?_
    · simp
    · rfl
    · rfl
    · intro b hb; fin_cases b
      · exact absurd rfl hb
      · rfl
    · show 2 + (Cert.Pixel.mirror i).val = i.val; rw [hm]; split_ifs <;> omega
    · rfl
  rcases Nat.lt_or_ge i.val 515 with c3 | c3
  · -- row 514 of the halo is row 510
    refine (concatenate_apply_piece (0 : Fin 2) _ _ (ix2 i q) 3 ?_ S1x512 (extractStridedSlice S1x512 ![510, 0] B slices_S512x512_o510_0_S1x512) ?_ rfl 514 ?_ (ix2 (0 : Fin 1) q) ?_ ?_).trans ?_
    · simp
    · rfl
    · rfl
    · intro b hb; fin_cases b
      · exact absurd rfl hb
      · rfl
    · show 514 + (0 : ℕ) = i.val; omega
    · exact row_apply B _ _ q _ (by show 510 = _; rw [hm]; split_ifs <;> omega) rfl
  · -- row 515 of the halo is row 509
    refine (concatenate_apply_piece (0 : Fin 2) _ _ (ix2 i q) 4 ?_ S1x512 (extractStridedSlice S1x512 ![509, 0] B slices_S512x512_o509_0_S1x512) ?_ rfl 515 ?_ (ix2 (0 : Fin 1) q) ?_ ?_).trans ?_
    · simp
    · rfl
    · rfl
    · intro b hb; fin_cases b
      · exact absurd rfl hb
      · rfl
    · show 515 + (0 : ℕ) = i.val; omega
    · exact row_apply B _ _ q _ (by show 509 = _; rw [hm]; split_ifs <;> omega) rfl

/-- One column of the rows cut out and read: column `r`. -/
theorem col_apply (R : S516x512.Idx → α) (off : Fin 2 → Nat) (h : S516x512.Slices off S516x1) (i : Fin 516) (r : Fin 512)
    (h0 : off 0 = 0) (h1 : off 1 = r.val) :
    extractStridedSlice S516x1 off R h (ix2 i (0 : Fin 1)) = R (ix2 i r) :=
  extractStridedSlice_apply off R h (ix2 i (0 : Fin 1)) (ix2 i r) (fun a => by
    fin_cases a
    · show i.val = off 0 + i.val; omega
    · show r.val = off 1 + 0; omega)

/-- The halo image at (i, j): the rows at the mirrored column. -/
theorem cols_apply (B : S512x512.Idx → α) (i j : Fin 516) :
    halo B (ix2 i j) = rows B (ix2 i (Cert.Pixel.mirror j)) := by
  unfold halo
  have hm := mirror_val j
  rcases Nat.lt_or_ge j.val 1 with c0 | c0
  · -- column 0 of the halo is column 2
    refine (concatenate_apply_piece (1 : Fin 2) _ _ (ix2 i j) 0 ?_ S516x1 (extractStridedSlice S516x1 ![0, 2] (rows B) slices_S516x512_o0_2_S516x1) ?_ rfl 0 ?_ (ix2 i (0 : Fin 1)) ?_ ?_).trans ?_
    · simp
    · rfl
    · rfl
    · intro b hb; fin_cases b
      · rfl
      · exact absurd rfl hb
    · show 0 + (0 : ℕ) = j.val; omega
    · exact col_apply (rows B) _ _ i _ rfl (by show 2 = _; rw [hm]; split_ifs <;> omega)
  rcases Nat.lt_or_ge j.val 2 with c1 | c1
  · -- column 1 of the halo is column 1
    refine (concatenate_apply_piece (1 : Fin 2) _ _ (ix2 i j) 1 ?_ S516x1 (extractStridedSlice S516x1 ![0, 1] (rows B) slices_S516x512_o0_1_S516x1) ?_ rfl 1 ?_ (ix2 i (0 : Fin 1)) ?_ ?_).trans ?_
    · simp
    · rfl
    · rfl
    · intro b hb; fin_cases b
      · rfl
      · exact absurd rfl hb
    · show 1 + (0 : ℕ) = j.val; omega
    · exact col_apply (rows B) _ _ i _ rfl (by show 1 = _; rw [hm]; split_ifs <;> omega)
  rcases Nat.lt_or_ge j.val 514 with c2 | c2
  · -- columns 2 … 513 of the halo are the rows
    refine (concatenate_apply_piece (1 : Fin 2) _ _ (ix2 i j) 2 ?_ S516x512 (rows B) ?_ rfl 2 ?_ (ix2 i (Cert.Pixel.mirror j)) ?_ ?_).trans ?_
    · simp
    · rfl
    · rfl
    · intro b hb; fin_cases b
      · rfl
      · exact absurd rfl hb
    · show 2 + (Cert.Pixel.mirror j).val = j.val; rw [hm]; split_ifs <;> omega
    · rfl
  rcases Nat.lt_or_ge j.val 515 with c3 | c3
  · -- column 514 of the halo is column 510
    refine (concatenate_apply_piece (1 : Fin 2) _ _ (ix2 i j) 3 ?_ S516x1 (extractStridedSlice S516x1 ![0, 510] (rows B) slices_S516x512_o0_510_S516x1) ?_ rfl 514 ?_ (ix2 i (0 : Fin 1)) ?_ ?_).trans ?_
    · simp
    · rfl
    · rfl
    · intro b hb; fin_cases b
      · rfl
      · exact absurd rfl hb
    · show 514 + (0 : ℕ) = j.val; omega
    · exact col_apply (rows B) _ _ i _ rfl (by show 510 = _; rw [hm]; split_ifs <;> omega)
  · -- column 515 of the halo is column 509
    refine (concatenate_apply_piece (1 : Fin 2) _ _ (ix2 i j) 4 ?_ S516x1 (extractStridedSlice S516x1 ![0, 509] (rows B) slices_S516x512_o0_509_S516x1) ?_ rfl 515 ?_ (ix2 i (0 : Fin 1)) ?_ ?_).trans ?_
    · simp
    · rfl
    · rfl
    · intro b hb; fin_cases b
      · rfl
      · exact absurd rfl hb
    · show 515 + (0 : ℕ) = j.val; omega
    · exact col_apply (rows B) _ _ i _ rfl (by show 509 = _; rw [hm]; split_ifs <;> omega)

/-- The halo image at (i, j) is the image at the mirrored row and the mirrored column. -/
theorem halo_apply (B : S512x512.Idx → α) (i j : Fin 516) :
    halo B (ix2 i j) = B (ix2 (Cert.Pixel.mirror i) (Cert.Pixel.mirror j)) :=
  (cols_apply B i j).trans (rows_apply B i _)

end Cert.KernelIdeal.KHalo

end
-- ==== Proof.KPixel.lean ====
/-
  What the kernel's body stores, read at one pixel: the body's value is the bilateral quotient of the blended block
  and its halo, entry by entry, so at (0, p, q) it is the filter of the blended block (the power written `c · √c`) at (p, q).
-/
import proofs.«157411_j11484742549760_2_alg».proof.Proof.Gen.KernelIdeal.Frame
import proofs.«157411_j11484742549760_2_alg».proof.Proof.KHalo
import Idealize.ShloMosaic.Lib.Pipeline.Value
import Idealize.ShloMosaic.Lib.ValueIdx

noncomputable section

namespace Cert.KernelIdeal.KPixel

open Cert.KernelIdeal Cert.KernelIdeal.Gen Idealize.ShloMosaic Idealize.ShloMosaic.ValueIdx Idealize.ShloMosaic.Pipeline

/-- One scalar word spread over the block. -/
def splat (w : BitVec 32) : FVec Ideal S512x512 .f32 := broadcast S512x512 (Scalar.ofBits (F := Ideal) .f32 w)

/-- A tap's weight array. -/
def weight (s : BitVec 32) (sh B : FVec Ideal S512x512 .f32) : FVec Ideal S512x512 .f32 :=
  mulf (splat s) (exp (mulf (mulf (splat 0xC3480000#32) (subf sh B)) (subf sh B)))

/-- One tap added to the numerator. -/
def numStep (s : BitVec 32) (sh B num : FVec Ideal S512x512 .f32) : FVec Ideal S512x512 .f32 :=
  addf num (mulf (weight s sh B) sh)

/-- One tap added to the denominator. -/
def denStep (s : BitVec 32) (sh B den : FVec Ideal S512x512 .f32) : FVec Ideal S512x512 .f32 :=
  addf den (weight s sh B)

/-- The halo image moved by (-2, 0). -/
def shift1 (P : FVec Ideal S516x516 .f32) : FVec Ideal S512x512 .f32 :=
  extractStridedSlice S512x512 ![0, 2] P slices_S516x516_o0_2_S512x512
/-- The halo image moved by (-1, -1). -/
def shift2 (P : FVec Ideal S516x516 .f32) : FVec Ideal S512x512 .f32 :=
  extractStridedSlice S512x512 ![1, 1] P slices_S516x516_o1_1_S512x512
/-- The halo image moved by (-1, 0). -/
def shift3 (P : FVec Ideal S516x516 .f32) : FVec Ideal S512x512 .f32 :=
  extractStridedSlice S512x512 ![1, 2] P slices_S516x516_o1_2_S512x512
/-- The halo image moved by (-1, 1). -/
def shift4 (P : FVec Ideal S516x516 .f32) : FVec Ideal S512x512 .f32 :=
  extractStridedSlice S512x512 ![1, 3] P slices_S516x516_o1_3_S512x512
/-- The halo image moved by (0, -2). -/
def shift5 (P : FVec Ideal S516x516 .f32) : FVec Ideal S512x512 .f32 :=
  extractStridedSlice S512x512 ![2, 0] P slices_S516x516_o2_0_S512x512
/-- The halo image moved by (0, -1). -/
def shift6 (P : FVec Ideal S516x516 .f32) : FVec Ideal S512x512 .f32 :=
  extractStridedSlice S512x512 ![2, 1] P slices_S516x516_o2_1_S512x512
/-- The halo image moved by (0, 0). -/
def shift7 (P : FVec Ideal S516x516 .f32) : FVec Ideal S512x512 .f32 :=
  extractStridedSlice S512x512 ![2, 2] P slices_S516x516_o2_2_S512x512
/-- The halo image moved by (0, 1). -/
def shift8 (P : FVec Ideal S516x516 .f32) : FVec Ideal S512x512 .f32 :=
  extractStridedSlice S512x512 ![2, 3] P slices_S516x516_o2_3_S512x512
/-- The halo image moved by (0, 2). -/
def shift9 (P : FVec Ideal S516x516 .f32) : FVec Ideal S512x512 .f32 :=
  extractStridedSlice S512x512 ![2, 4] P slices_S516x516_o2_4_S512x512
/-- The halo image moved by (1, -1). -/
def shift10 (P : FVec Ideal S516x516 .f32) : FVec Ideal S512x512 .f32 :=
  extractStridedSlice S512x512 ![3, 1] P slices_S516x516_o3_1_S512x512
/-- The halo image moved by (1, 0). -/
def shift11 (P : FVec Ideal S516x516 .f32) : FVec Ideal S512x512 .f32 :=
  extractStridedSlice S512x512 ![3, 2] P slices_S516x516_o3_2_S512x512
/-- The halo image moved by (1, 1). -/
def shift12 (P : FVec Ideal S516x516 .f32) : FVec Ideal S512x512 .f32 :=
  extractStridedSlice S512x512 ![3, 3] P slices_S516x516_o3_3_S512x512
/-- The halo image moved by (2, 0). -/
def shift13 (P : FVec Ideal S516x516 .f32) : FVec Ideal S512x512 .f32 :=
  extractStridedSlice S512x512 ![4, 2] P slices_S516x516_o4_2_S512x512

/-- The weighted sum of the thirteen shifted halo blocks, from zero, in the body's order. -/
def numer (B : FVec Ideal S512x512 .f32) (P : FVec Ideal S516x516 .f32) : FVec Ideal S512x512 .f32 :=
  numStep 0x3F7FCB98#32 (shift13 P) B (numStep 0x3F7FE5CA#32 (shift12 P) B (numStep 0x3F7FF2E5#32 (shift11 P) B (numStep 0x3F7FE5CA#32 (shift10 P) B (numStep 0x3F7FCB98#32 (shift9 P) B (numStep 0x3F7FF2E5#32 (shift8 P) B (numStep 0x3F800000#32 (shift7 P) B (numStep 0x3F7FF2E5#32 (shift6 P) B (numStep 0x3F7FCB98#32 (shift5 P) B (numStep 0x3F7FE5CA#32 (shift4 P) B (numStep 0x3F7FF2E5#32 (shift3 P) B (numStep 0x3F7FE5CA#32 (shift2 P) B (numStep 0x3F7FCB98#32 (shift1 P) B (splat 0x00000000#32)))))))))))))

/-- The sum of the thirteen weights, from zero, in the body's order. -/
def denom (B : FVec Ideal S512x512 .f32) (P : FVec Ideal S516x516 .f32) : FVec Ideal S512x512 .f32 :=
  denStep 0x3F7FCB98#32 (shift13 P) B (denStep 0x3F7FE5CA#32 (shift12 P) B (denStep 0x3F7FF2E5#32 (shift11 P) B (denStep 0x3F7FE5CA#32 (shift10 P) B (denStep 0x3F7FCB98#32 (shift9 P) B (denStep 0x3F7FF2E5#32 (shift8 P) B (denStep 0x3F800000#32 (shift7 P) B (denStep 0x3F7FF2E5#32 (shift6 P) B (denStep 0x3F7FCB98#32 (shift5 P) B (denStep 0x3F7FE5CA#32 (shift4 P) B (denStep 0x3F7FF2E5#32 (shift3 P) B (denStep 0x3F7FE5CA#32 (shift2 P) B (denStep 0x3F7FCB98#32 (shift1 P) B (splat 0x00000000#32)))))))))))))

/-- Their quotient. -/
def quotient (B : FVec Ideal S512x512 .f32) (P : FVec Ideal S516x516 .f32) : FVec Ideal S512x512 .f32 :=
  divf (numer B P) (denom B P)

theorem hz : (![0, 0, 0] : Fin 3 → Nat) = fun _ => 0 := funext fun a => by fin_cases a <;> rfl

/-- The body's one store covers its whole buffer, and its value is the quotient of the blended block and its halo,
    given a leading unit axis. -/
theorem stored_eq (x0 : Vec Ideal S1x512x512 .f32) :
    out0_1 (F := Ideal) x0
      = shapeCast S1x512x512 (quotient (k0_pay2 (F := Ideal) x0) (k0_pay3 (F := Ideal) x0)) shapeCasts_S512x512_S1x512x512 := by
  unfold out0_1
  rw [View.canon_unit_zero hz]
  simp only [View.ld_unit_zero (S := S1x512x512) hz]
  rfl

theorem splat_apply (w : BitVec 32) (j : S512x512.Idx) : splat w j = Ideal.ofBits .f32 w := rfl

/-- A tap's weight array at an entry is the tap's weight of the entry's two values. -/
theorem weight_apply (s : BitVec 32) (sh B : FVec Ideal S512x512 .f32) (j : S512x512.Idx) :
    weight s sh B j = Cert.Pixel.weight s (sh j) (B j) := rfl

theorem numStep_apply (s : BitVec 32) (sh B num : FVec Ideal S512x512 .f32) (j : S512x512.Idx) :
    numStep s sh B num j = Cert.Pixel.numStep s (sh j) (B j) (num j) := rfl

theorem denStep_apply (s : BitVec 32) (sh B den : FVec Ideal S512x512 .f32) (j : S512x512.Idx) :
    denStep s sh B den j = Cert.Pixel.denStep s (sh j) (B j) (den j) := rfl

/-- The quotient at an entry is the pixel quotient of the entry's centre value and its thirteen taps. -/
theorem quotient_apply (B : FVec Ideal S512x512 .f32) (P : FVec Ideal S516x516 .f32) (j : S512x512.Idx) :
    quotient B P j = Cert.Pixel.bilateral (B j) (shift1 P j) (shift2 P j) (shift3 P j) (shift4 P j) (shift5 P j) (shift6 P j) (shift7 P j) (shift8 P j) (shift9 P j) (shift10 P j) (shift11 P j) (shift12 P j) (shift13 P j) := by
  unfold quotient numer denom Cert.Pixel.bilateral
  rw [divf_apply]
  simp only [numStep_apply, denStep_apply, splat_apply]

/-- The blended block, as a function of row and column. -/
def img (x0 : Vec Ideal S1x512x512 .f32) : Fin 512 → Fin 512 → EReal :=
  fun i j => Cert.Pixel.blendSqrt (x0 (ix3 (0 : Fin 1) i j))

/-- The body's blended value at (p, q) is the blend of the block's pixel (0, p, q). -/
theorem blend_apply (x0 : Vec Ideal S1x512x512 .f32) (p q : Fin 512) :
    k0_pay2 (F := Ideal) x0 (ix2 p q) = img x0 p q := by
  have e : shapeCast S512x512 x0 shapeCasts_S1x512x512_S512x512 (ix2 p q) = x0 (ix3 (0 : Fin 1) p q) := by
    refine (shapeCast_dropUnit_apply ![512, 512] x0 _ (ix2 p q)).trans (congrArg x0 ?_)
    funext a; fin_cases a <;> rfl
  show Cert.Pixel.blendSqrt (shapeCast S512x512 x0 shapeCasts_S1x512x512_S512x512 (ix2 p q)) = _
  rw [e]; rfl

/-- A 512 × 512 window of the halo at offset (dy, dx), read at (p, q): the blended block at the mirrored position. -/
theorem shift_apply (x0 : Vec Ideal S1x512x512 .f32) (off : Fin 2 → Nat) (h : S516x516.Slices off S512x512)
    (dy dx : Fin 5) (hy : off 0 = dy.val) (hx : off 1 = dx.val) (p q : Fin 512) :
    extractStridedSlice S512x512 off (k0_pay3 (F := Ideal) x0) h (ix2 p q) = Cert.Pixel.moved (img x0) dy dx p q := by
  have hdy := dy.isLt
  have hdx := dx.isLt
  rw [Cert.KernelIdeal.KHalo.pay3_eq]
  refine (extractStridedSlice_apply off _ h (ix2 p q)
    (ix2 (⟨p.val + dy.val, by omega⟩ : Fin 516) (⟨q.val + dx.val, by omega⟩ : Fin 516)) ?_).trans ?_
  · intro a; fin_cases a
    · show p.val + dy.val = off 0 + p.val; omega
    · show q.val + dx.val = off 1 + q.val; omega
  · rw [Cert.KernelIdeal.KHalo.halo_apply]; exact blend_apply x0 _ _

theorem shift1_apply (x0 : Vec Ideal S1x512x512 .f32) (p q : Fin 512) :
    shift1 (k0_pay3 (F := Ideal) x0) (ix2 p q) = Cert.Pixel.moved (img x0) 0 2 p q :=
  shift_apply x0 _ _ 0 2 rfl rfl p q
theorem shift2_apply (x0 : Vec Ideal S1x512x512 .f32) (p q : Fin 512) :
    shift2 (k0_pay3 (F := Ideal) x0) (ix2 p q) = Cert.Pixel.moved (img x0) 1 1 p q :=
  shift_apply x0 _ _ 1 1 rfl rfl p q
theorem shift3_apply (x0 : Vec Ideal S1x512x512 .f32) (p q : Fin 512) :
    shift3 (k0_pay3 (F := Ideal) x0) (ix2 p q) = Cert.Pixel.moved (img x0) 1 2 p q :=
  shift_apply x0 _ _ 1 2 rfl rfl p q
theorem shift4_apply (x0 : Vec Ideal S1x512x512 .f32) (p q : Fin 512) :
    shift4 (k0_pay3 (F := Ideal) x0) (ix2 p q) = Cert.Pixel.moved (img x0) 1 3 p q :=
  shift_apply x0 _ _ 1 3 rfl rfl p q
theorem shift5_apply (x0 : Vec Ideal S1x512x512 .f32) (p q : Fin 512) :
    shift5 (k0_pay3 (F := Ideal) x0) (ix2 p q) = Cert.Pixel.moved (img x0) 2 0 p q :=
  shift_apply x0 _ _ 2 0 rfl rfl p q
theorem shift6_apply (x0 : Vec Ideal S1x512x512 .f32) (p q : Fin 512) :
    shift6 (k0_pay3 (F := Ideal) x0) (ix2 p q) = Cert.Pixel.moved (img x0) 2 1 p q :=
  shift_apply x0 _ _ 2 1 rfl rfl p q
theorem shift7_apply (x0 : Vec Ideal S1x512x512 .f32) (p q : Fin 512) :
    shift7 (k0_pay3 (F := Ideal) x0) (ix2 p q) = Cert.Pixel.moved (img x0) 2 2 p q :=
  shift_apply x0 _ _ 2 2 rfl rfl p q
theorem shift8_apply (x0 : Vec Ideal S1x512x512 .f32) (p q : Fin 512) :
    shift8 (k0_pay3 (F := Ideal) x0) (ix2 p q) = Cert.Pixel.moved (img x0) 2 3 p q :=
  shift_apply x0 _ _ 2 3 rfl rfl p q
theorem shift9_apply (x0 : Vec Ideal S1x512x512 .f32) (p q : Fin 512) :
    shift9 (k0_pay3 (F := Ideal) x0) (ix2 p q) = Cert.Pixel.moved (img x0) 2 4 p q :=
  shift_apply x0 _ _ 2 4 rfl rfl p q
theorem shift10_apply (x0 : Vec Ideal S1x512x512 .f32) (p q : Fin 512) :
    shift10 (k0_pay3 (F := Ideal) x0) (ix2 p q) = Cert.Pixel.moved (img x0) 3 1 p q :=
  shift_apply x0 _ _ 3 1 rfl rfl p q
theorem shift11_apply (x0 : Vec Ideal S1x512x512 .f32) (p q : Fin 512) :
    shift11 (k0_pay3 (F := Ideal) x0) (ix2 p q) = Cert.Pixel.moved (img x0) 3 2 p q :=
  shift_apply x0 _ _ 3 2 rfl rfl p q
theorem shift12_apply (x0 : Vec Ideal S1x512x512 .f32) (p q : Fin 512) :
    shift12 (k0_pay3 (F := Ideal) x0) (ix2 p q) = Cert.Pixel.moved (img x0) 3 3 p q :=
  shift_apply x0 _ _ 3 3 rfl rfl p q
theorem shift13_apply (x0 : Vec Ideal S1x512x512 .f32) (p q : Fin 512) :
    shift13 (k0_pay3 (F := Ideal) x0) (ix2 p q) = Cert.Pixel.moved (img x0) 4 2 p q :=
  shift_apply x0 _ _ 4 2 rfl rfl p q

/-- What the body stores at (0, p, q): the filter of the blended block at (p, q). -/
theorem stored_apply (x0 : Vec Ideal S1x512x512 .f32) (p q : Fin 512) :
    out0_1 (F := Ideal) x0 (ix3 (0 : Fin 1) p q) = Cert.Pixel.filter (img x0) p q := by
  rw [stored_eq]
  refine (shapeCast_addUnit_apply ![512, 512] _ _ (ix3 (0 : Fin 1) p q)).trans ?_
  have e : (fun a : Fin 2 => (ix3 (0 : Fin 1) p q) a.succ) = ix2 p q := by funext a; fin_cases a <;> rfl
  refine (congrArg (quotient _ _) e).trans ?_
  rw [quotient_apply, blend_apply, shift1_apply, shift2_apply, shift3_apply, shift4_apply, shift5_apply, shift6_apply, shift7_apply, shift8_apply, shift9_apply, shift10_apply, shift11_apply, shift12_apply, shift13_apply]
  rfl

end Cert.KernelIdeal.KPixel

end
-- ==== Proof.RHalo.lean ====
/-
  The reference's halo image read at an index. The reference builds it in four steps — rows 2, 1 (a two-row slice
  reversed) in front of the image; rows 510, 509 (rows 511, 512 of that, reversed) behind it; then the same with the
  columns —, so the halo image at (b, 0, i, j) is the image at the mirrored row and column.
-/
import proofs.«157411_j11484742549760_2_alg».proof.Proof.RefSpec
import proofs.«157411_j11484742549760_2_alg».proof.Proof.Pixel
import Idealize.ShloMosaic.Lib.Pipeline.Value
import Idealize.ShloMosaic.Lib.ValueIdx

noncomputable section

namespace Cert.ReferenceIdeal.RHalo

open Cert.ReferenceIdeal Cert.ReferenceIdeal.Gen Cert.ReferenceIdeal.RefSpec Idealize.ShloMosaic Idealize.ShloMosaic.ValueIdx
open Idealize.ShloMosaic.Pipeline

variable {F : FTy → Type} [FloatOps F]

local notation "α" => F FTy.f32

/-- Where coordinate `i` of the 514-long axis (two mirrored entries in front) reads the 512-long one: 2, 1, 0 … 511. -/
def front512 (i : Fin 514) : Fin 512 := ⟨if i.val < 2 then 2 - i.val else i.val - 2, by split_ifs <;> omega⟩
theorem front512_val (i : Fin 514) : (front512 i).val = if i.val < 2 then 2 - i.val else i.val - 2 := rfl

/-- Where coordinate `i` of the 516-long axis (two mirrored entries behind) reads the 514-long one: 0 … 513, 512, 511. -/
def back512 (i : Fin 516) : Fin 514 := ⟨if i.val < 514 then i.val else 1026 - i.val, by split_ifs <;> omega⟩
theorem back512_val (i : Fin 516) : (back512 i).val = if i.val < 514 then i.val else 1026 - i.val := rfl

/-- The two steps composed are the mirror. -/
theorem front_back (i : Fin 516) : front512 (back512 i) = Cert.Pixel.mirror i := by
  apply Fin.ext
  show (if (back512 i).val < 2 then 2 - (back512 i).val else (back512 i).val - 2)
    = if i.val < 2 then 2 - i.val else if i.val < 514 then i.val - 2 else 1024 - i.val
  rw [back512_val]; have := i.isLt; split_ifs <;> omega

/-- A two-row piece reversed along the rows. -/
theorem rev2_S32x1x2x512 (x : S32x1x2x512.Idx → α) (b : Fin 32) (u : Fin 1) (i : Fin 2) (q : Fin 512) :
    Host.reverse [2] x (ix4 b u i q) = x (ix4 b u i.rev q) := by
  unfold Host.reverse; refine congrArg x (funext fun a => ?_); fin_cases a <;> rfl

/-- A two-column piece reversed along the columns. -/
theorem rev3_S32x1x516x2 (x : S32x1x516x2.Idx → α) (b : Fin 32) (u : Fin 1) (j : Fin 2) (q : Fin 516) :
    Host.reverse [3] x (ix4 b u q j) = x (ix4 b u q j.rev) := by
  unfold Host.reverse; refine congrArg x (funext fun a => ?_); fin_cases a <;> rfl

/-- Rows 2, 1 in front: row `i` of the 514 is row `front512 i` of the image. -/
theorem rowsTop_apply (B : S32x1x512x512.Idx → α) (b : Fin 32) (u : Fin 1) (i : Fin 514) (q : Fin 512) :
    rowsTop B (ix4 b u i q) = B (ix4 b u (front512 i) q) := by
  unfold rowsTop
  have hf := front512_val i
  by_cases h : i.val < 2
  · refine (concatenate_pair_apply_left (s₁ := S32x1x2x512) (s₂ := S32x1x512x512) (2 : Fin 4) _ _ _ (ix4 b u i q) rfl (ix4 b u (⟨i.val, h⟩ : Fin 2) q) ?_).trans ?_
    · intro b'; fin_cases b' <;> rfl
    · refine (rev2_S32x1x2x512 _ b u _ q).trans ?_
      refine extractStridedSlice_apply _ _ _ _ (ix4 b u (front512 i) q) ?_
      intro a; fin_cases a
      · show b.val = 0 + b.val; omega
      · show u.val = 0 + u.val; omega
      · show (front512 i).val = 1 + (Fin.rev (⟨i.val, h⟩ : Fin 2)).val; rw [hf, Fin.val_rev]; simp only [Fin.val_mk]; split_ifs <;> omega
      · show q.val = 0 + q.val; omega
  · refine (concatenate_pair_apply_right (s₁ := S32x1x2x512) (s₂ := S32x1x512x512) (2 : Fin 4) _ _ _ (ix4 b u i q) rfl rfl (ix4 b u (front512 i) q) ?_ ?_).trans rfl
    · intro b' hb'; fin_cases b'
      · rfl
      · rfl
      · exact absurd rfl hb'
      · rfl
    · show (front512 i).val + 2 = i.val; rw [hf]; split_ifs <;> omega

/-- Rows 510, 509 behind: row `i` of the 516 is row `back512 i` of the 514. -/
theorem rowsAll_apply (B : S32x1x512x512.Idx → α) (b : Fin 32) (u : Fin 1) (i : Fin 516) (q : Fin 512) :
    rowsAll B (ix4 b u i q) = rowsTop B (ix4 b u (back512 i) q) := by
  unfold rowsAll
  have hf := back512_val i
  by_cases h : i.val < 514
  · refine (concatenate_pair_apply_left (s₁ := S32x1x514x512) (s₂ := S32x1x2x512) (2 : Fin 4) _ _ _ (ix4 b u i q) rfl (ix4 b u (⟨i.val, h⟩ : Fin 514) q) ?_).trans ?_
    · intro b'; fin_cases b' <;> rfl
    · refine congrArg (rowsTop B) ?_
      funext a; fin_cases a
      · rfl
      · rfl
      · exact Fin.ext (by show i.val = (back512 i).val; rw [hf]; split_ifs <;> omega)
      · rfl
  · have h2 : i.val - 514 < 2 := by have := i.isLt; omega
    refine (concatenate_pair_apply_right (s₁ := S32x1x514x512) (s₂ := S32x1x2x512) (2 : Fin 4) _ _ _ (ix4 b u i q) rfl rfl (ix4 b u (⟨i.val - 514, h2⟩ : Fin 2) q) ?_ ?_).trans ?_
    · intro b' hb'; fin_cases b'
      · rfl
      · rfl
      · exact absurd rfl hb'
      · rfl
    · show (i.val - 514) + 514 = i.val; omega
    · refine (rev2_S32x1x2x512 _ b u _ q).trans ?_
      refine extractStridedSlice_apply _ _ _ _ (ix4 b u (back512 i) q) ?_
      intro a; fin_cases a
      · show b.val = 0 + b.val; omega
      · show u.val = 0 + u.val; omega
      · show (back512 i).val = 511 + (Fin.rev (⟨i.val - 514, h2⟩ : Fin 2)).val; rw [hf, Fin.val_rev]; simp only [Fin.val_mk]; split_ifs <;> omega
      · show q.val = 0 + q.val; omega

/-- Columns 2, 1 in front: column `i` of the 514 is column `front512 i` of the rows. -/
theorem colsLeft_apply (B : S32x1x512x512.Idx → α) (b : Fin 32) (u : Fin 1) (i : Fin 514) (q : Fin 516) :
    colsLeft B (ix4 b u q i) = rowsAll B (ix4 b u q (front512 i)) := by
  unfold colsLeft
  have hf := front512_val i
  by_cases h : i.val < 2
  · refine (concatenate_pair_apply_left (s₁ := S32x1x516x2) (s₂ := S32x1x516x512) (3 : Fin 4) _ _ _ (ix4 b u q i) rfl (ix4 b u q (⟨i.val, h⟩ : Fin 2)) ?_).trans ?_
    · intro b'; fin_cases b' <;> rfl
    · refine (rev3_S32x1x516x2 _ b u _ q).trans ?_
      refine extractStridedSlice_apply _ _ _ _ (ix4 b u q (front512 i)) ?_
      intro a; fin_cases a
      · show b.val = 0 + b.val; omega
      · show u.val = 0 + u.val; omega
      · show q.val = 0 + q.val; omega
      · show (front512 i).val = 1 + (Fin.rev (⟨i.val, h⟩ : Fin 2)).val; rw [hf, Fin.val_rev]; simp only [Fin.val_mk]; split_ifs <;> omega
  · refine (concatenate_pair_apply_right (s₁ := S32x1x516x2) (s₂ := S32x1x516x512) (3 : Fin 4) _ _ _ (ix4 b u q i) rfl rfl (ix4 b u q (front512 i)) ?_ ?_).trans rfl
    · intro b' hb'; fin_cases b'
      · rfl
      · rfl
      · rfl
      · exact absurd rfl hb'
    · show (front512 i).val + 2 = i.val; rw [hf]; split_ifs <;> omega

/-- Columns 510, 509 behind: column `i` of the 516 is column `back512 i` of the 514. -/
theorem padded_apply (B : S32x1x512x512.Idx → α) (b : Fin 32) (u : Fin 1) (i : Fin 516) (q : Fin 516) :
    padded B (ix4 b u q i) = colsLeft B (ix4 b u q (back512 i)) := by
  unfold padded
  have hf := back512_val i
  by_cases h : i.val < 514
  · refine (concatenate_pair_apply_left (s₁ := S32x1x516x514) (s₂ := S32x1x516x2) (3 : Fin 4) _ _ _ (ix4 b u q i) rfl (ix4 b u q (⟨i.val, h⟩ : Fin 514)) ?_).trans ?_
    · intro b'; fin_cases b' <;> rfl
    · refine congrArg (colsLeft B) ?_
      funext a; fin_cases a
      · rfl
      · rfl
      · rfl
      · exact Fin.ext (by show i.val = (back512 i).val; rw [hf]; split_ifs <;> omega)
  · have h2 : i.val - 514 < 2 := by have := i.isLt; omega
    refine (concatenate_pair_apply_right (s₁ := S32x1x516x514) (s₂ := S32x1x516x2) (3 : Fin 4) _ _ _ (ix4 b u q i) rfl rfl (ix4 b u q (⟨i.val - 514, h2⟩ : Fin 2)) ?_ ?_).trans ?_
    · intro b' hb'; fin_cases b'
      · rfl
      · rfl
      · rfl
      · exact absurd rfl hb'
    · show (i.val - 514) + 514 = i.val; omega
    · refine (rev3_S32x1x516x2 _ b u _ q).trans ?_
      refine extractStridedSlice_apply _ _ _ _ (ix4 b u q (back512 i)) ?_
      intro a; fin_cases a
      · show b.val = 0 + b.val; omega
      · show u.val = 0 + u.val; omega
      · show q.val = 0 + q.val; omega
      · show (back512 i).val = 511 + (Fin.rev (⟨i.val - 514, h2⟩ : Fin 2)).val; rw [hf, Fin.val_rev]; simp only [Fin.val_mk]; split_ifs <;> omega

/-- The halo image at (b, u, i, j) is the image at the mirrored row and the mirrored column. -/
theorem halo_apply (B : S32x1x512x512.Idx → α) (b : Fin 32) (u : Fin 1) (i j : Fin 516) :
    padded B (ix4 b u i j) = B (ix4 b u (Cert.Pixel.mirror i) (Cert.Pixel.mirror j)) := by
  rw [padded_apply, colsLeft_apply, rowsAll_apply, rowsTop_apply, front_back, front_back]

end Cert.ReferenceIdeal.RHalo

end
-- ==== Proof.RPixel.lean ====
/-
  The reference's result read at one pixel: its result array is the bilateral quotient of the blended batch and its
  halo, entry by entry, so at (b, 0, p, q) it is the filter of image `b`'s blend (the power written `c ^ 1.5`) at (p, q).
-/
import proofs.«157411_j11484742549760_2_alg».proof.Proof.RHalo

noncomputable section

namespace Cert.ReferenceIdeal.RPixel

open Cert.ReferenceIdeal Cert.ReferenceIdeal.Gen Cert.ReferenceIdeal.RefSpec Idealize.ShloMosaic Idealize.ShloMosaic.ValueIdx
open Idealize.ShloMosaic.Pipeline

theorem splat_apply (w : BitVec 32) (i : S32x1x512x512.Idx) : splat (F := Ideal) w i = Ideal.ofBits .f32 w := rfl

/-- A tap's weight array at an entry is the tap's weight of the entry's two values. -/
theorem weight_apply (s : BitVec 32) (sh B : FVec Ideal S32x1x512x512 .f32) (i : S32x1x512x512.Idx) :
    weight s sh B i = Cert.Pixel.weight s (sh i) (B i) := rfl

theorem numStep_apply (s : BitVec 32) (sh B num : FVec Ideal S32x1x512x512 .f32) (i : S32x1x512x512.Idx) :
    numStep s sh B num i = Cert.Pixel.numStep s (sh i) (B i) (num i) := rfl

theorem denStep_apply (s : BitVec 32) (sh B den : FVec Ideal S32x1x512x512 .f32) (i : S32x1x512x512.Idx) :
    denStep s sh B den i = Cert.Pixel.denStep s (sh i) (B i) (den i) := rfl

theorem hostDivf_apply (a b : FVec Ideal S32x1x512x512 .f32) (i : S32x1x512x512.Idx) :
    Host.divf a b i = Ideal.div (a i) (b i) := rfl

/-- The quotient at an entry is the pixel quotient of the entry's centre value and its thirteen taps. -/
theorem quotient_apply (B : FVec Ideal S32x1x512x512 .f32) (P : FVec Ideal S32x1x516x516 .f32) (i : S32x1x512x512.Idx) :
    Host.divf (numer B P) (denom B P) i
      = Cert.Pixel.bilateral (B i) (shift1 P i) (shift2 P i) (shift3 P i) (shift4 P i) (shift5 P i) (shift6 P i) (shift7 P i) (shift8 P i) (shift9 P i) (shift10 P i) (shift11 P i) (shift12 P i) (shift13 P i) := by
  unfold numer denom Cert.Pixel.bilateral
  rw [hostDivf_apply]
  simp only [numStep_apply, denStep_apply, splat_apply]

/-- Image `b`'s blend, as a function of row and column. -/
def img (x : FVec Ideal S32x1x512x512 .f32) (b : Fin 32) (u : Fin 1) : Fin 512 → Fin 512 → EReal :=
  fun i j => Cert.Pixel.blendPow (x (ix4 b u i j))

/-- The blended batch at an entry is the blend of the entry. -/
theorem blended_apply (x : FVec Ideal S32x1x512x512 .f32) (i : S32x1x512x512.Idx) :
    blended x i = Cert.Pixel.blendPow (x i) := rfl

/-- A 512 × 512 window of the halo at offset (dy, dx), read at (b, u, p, q): the blend at the mirrored position. -/
theorem shift_apply (x : FVec Ideal S32x1x512x512 .f32) (off : Fin 4 → Nat) (h : S32x1x516x516.Slices off S32x1x512x512)
    (dy dx : Fin 5) (h0 : off 0 = 0) (h1 : off 1 = 0) (hy : off 2 = dy.val) (hx : off 3 = dx.val)
    (b : Fin 32) (u : Fin 1) (p q : Fin 512) :
    extractStridedSlice S32x1x512x512 off (padded (blended x)) h (ix4 b u p q) = Cert.Pixel.moved (img x b u) dy dx p q := by
  have hdy := dy.isLt
  have hdx := dx.isLt
  refine (extractStridedSlice_apply off _ h (ix4 b u p q)
    (ix4 b u (⟨p.val + dy.val, by omega⟩ : Fin 516) (⟨q.val + dx.val, by omega⟩ : Fin 516)) ?_).trans ?_
  · intro a; fin_cases a
    · show b.val = off 0 + b.val; omega
    · show u.val = off 1 + u.val; omega
    · show p.val + dy.val = off 2 + p.val; omega
    · show q.val + dx.val = off 3 + q.val; omega
  · rw [Cert.ReferenceIdeal.RHalo.halo_apply]; rfl

theorem shift1_apply (x : FVec Ideal S32x1x512x512 .f32) (b : Fin 32) (u : Fin 1) (p q : Fin 512) :
    shift1 (padded (blended x)) (ix4 b u p q) = Cert.Pixel.moved (img x b u) 0 2 p q :=
  shift_apply x _ _ 0 2 rfl rfl rfl rfl b u p q
theorem shift2_apply (x : FVec Ideal S32x1x512x512 .f32) (b : Fin 32) (u : Fin 1) (p q : Fin 512) :
    shift2 (padded (blended x)) (ix4 b u p q) = Cert.Pixel.moved (img x b u) 1 1 p q :=
  shift_apply x _ _ 1 1 rfl rfl rfl rfl b u p q
theorem shift3_apply (x : FVec Ideal S32x1x512x512 .f32) (b : Fin 32) (u : Fin 1) (p q : Fin 512) :
    shift3 (padded (blended x)) (ix4 b u p q) = Cert.Pixel.moved (img x b u) 1 2 p q :=
  shift_apply x _ _ 1 2 rfl rfl rfl rfl b u p q
theorem shift4_apply (x : FVec Ideal S32x1x512x512 .f32) (b : Fin 32) (u : Fin 1) (p q : Fin 512) :
    shift4 (padded (blended x)) (ix4 b u p q) = Cert.Pixel.moved (img x b u) 1 3 p q :=
  shift_apply x _ _ 1 3 rfl rfl rfl rfl b u p q
theorem shift5_apply (x : FVec Ideal S32x1x512x512 .f32) (b : Fin 32) (u : Fin 1) (p q : Fin 512) :
    shift5 (padded (blended x)) (ix4 b u p q) = Cert.Pixel.moved (img x b u) 2 0 p q :=
  shift_apply x _ _ 2 0 rfl rfl rfl rfl b u p q
theorem shift6_apply (x : FVec Ideal S32x1x512x512 .f32) (b : Fin 32) (u : Fin 1) (p q : Fin 512) :
    shift6 (padded (blended x)) (ix4 b u p q) = Cert.Pixel.moved (img x b u) 2 1 p q :=
  shift_apply x _ _ 2 1 rfl rfl rfl rfl b u p q
theorem shift7_apply (x : FVec Ideal S32x1x512x512 .f32) (b : Fin 32) (u : Fin 1) (p q : Fin 512) :
    shift7 (padded (blended x)) (ix4 b u p q) = Cert.Pixel.moved (img x b u) 2 2 p q :=
  shift_apply x _ _ 2 2 rfl rfl rfl rfl b u p q
theorem shift8_apply (x : FVec Ideal S32x1x512x512 .f32) (b : Fin 32) (u : Fin 1) (p q : Fin 512) :
    shift8 (padded (blended x)) (ix4 b u p q) = Cert.Pixel.moved (img x b u) 2 3 p q :=
  shift_apply x _ _ 2 3 rfl rfl rfl rfl b u p q
theorem shift9_apply (x : FVec Ideal S32x1x512x512 .f32) (b : Fin 32) (u : Fin 1) (p q : Fin 512) :
    shift9 (padded (blended x)) (ix4 b u p q) = Cert.Pixel.moved (img x b u) 2 4 p q :=
  shift_apply x _ _ 2 4 rfl rfl rfl rfl b u p q
theorem shift10_apply (x : FVec Ideal S32x1x512x512 .f32) (b : Fin 32) (u : Fin 1) (p q : Fin 512) :
    shift10 (padded (blended x)) (ix4 b u p q) = Cert.Pixel.moved (img x b u) 3 1 p q :=
  shift_apply x _ _ 3 1 rfl rfl rfl rfl b u p q
theorem shift11_apply (x : FVec Ideal S32x1x512x512 .f32) (b : Fin 32) (u : Fin 1) (p q : Fin 512) :
    shift11 (padded (blended x)) (ix4 b u p q) = Cert.Pixel.moved (img x b u) 3 2 p q :=
  shift_apply x _ _ 3 2 rfl rfl rfl rfl b u p q
theorem shift12_apply (x : FVec Ideal S32x1x512x512 .f32) (b : Fin 32) (u : Fin 1) (p q : Fin 512) :
    shift12 (padded (blended x)) (ix4 b u p q) = Cert.Pixel.moved (img x b u) 3 3 p q :=
  shift_apply x _ _ 3 3 rfl rfl rfl rfl b u p q
theorem shift13_apply (x : FVec Ideal S32x1x512x512 .f32) (b : Fin 32) (u : Fin 1) (p q : Fin 512) :
    shift13 (padded (blended x)) (ix4 b u p q) = Cert.Pixel.moved (img x b u) 4 2 p q :=
  shift_apply x _ _ 4 2 rfl rfl rfl rfl b u p q

/-- The reference's result at (b, u, p, q): the filter of image `b`'s blend at (p, q). -/
theorem result_apply (x : FVec Ideal S32x1x512x512 .f32) (b : Fin 32) (u : Fin 1) (p q : Fin 512) :
    RefSpec.result x (ix4 b u p q) = Cert.Pixel.filter (img x b u) p q := by
  unfold RefSpec.result
  rw [quotient_apply, blended_apply, shift1_apply, shift2_apply, shift3_apply, shift4_apply, shift5_apply, shift6_apply, shift7_apply, shift8_apply, shift9_apply, shift10_apply, shift11_apply, shift12_apply, shift13_apply]
  rfl

end Cert.ReferenceIdeal.RPixel

end
-- ==== Proof.Bridge.lean ====
/-
  The two result arrays are one function of the argument array. At (b, 0, p, q) the kernel's is the filter of image
  `b`'s blend with the power written `c · √c`, the reference's the same filter of the blend with the power written
  `c ^ 1.5`; the clipped pixel `c` is nonnegative, so the two blends are the same number, pixel by pixel.
-/
import proofs.«157411_j11484742549760_2_alg».proof.Proof.KSpec
import proofs.«157411_j11484742549760_2_alg».proof.Proof.KPixel
import proofs.«157411_j11484742549760_2_alg».proof.Proof.RPixel

noncomputable section

namespace Cert.Bridge

open Idealize.ShloMosaic Idealize.ShloMosaic.ValueIdx

/-- The kernel program's result array and the reference's are equal, entry by entry. -/
theorem result_eq (x : FVec Ideal Cert.KernelIdeal.S32x1x512x512 .f32) :
    Cert.KernelIdeal.KSpec.result x = Cert.ReferenceIdeal.RefSpec.result (F := Ideal) x := by
  funext i
  obtain ⟨b, u, p, q, rfl⟩ : ∃ (b : Fin 32) (u : Fin 1) (p q : Fin 512), i = ix4 b u p q :=
    ⟨i 0, i 1, i 2, i 3, eq_ix4 i⟩
  obtain rfl : u = 0 := Subsingleton.elim _ _
  rw [Cert.ReferenceIdeal.RPixel.result_apply]
  show Cert.KernelIdeal.Gen.out0_1 (F := Ideal) (Cert.KernelIdeal.KSpec.image x b) (ix3 (0 : Fin 1) p q) = _
  rw [Cert.KernelIdeal.KPixel.stored_apply]
  refine congrArg (fun f => Cert.Pixel.filter f p q) ?_
  funext i j
  exact (Cert.Pixel.blendPow_eq _).symm

end Cert.Bridge

end
-- ==== Proof.lean ====
/-
  The certificate of the bilateral-filter kernel against its reference.

  Both programs clip every pixel to `c = min 1 (max 1e-6 ((x + 1) / 2))`, blend it to `0.6 c + 0.4 c^1.5`, surround each
  512 × 512 image with a reflected halo of width two, and return the quotient of the weighted sum of the thirteen halo
  pixels of the radius-2 disc around each pixel by the sum of their weights (weight: the tap's spatial constant times
  `exp (-200 d²)` of its difference `d` from the centre), both sums taken from zero in the same order with the same
  constants. The kernel handles one image per grid point and writes the power as `c · √c`; the reference handles the whole
  batch and writes `c ^ 1.5`. On the extended reals `c ^ 1.5 = c · √c` for every `c ≥ 0`, and the clipped pixel is
  nonnegative whatever the input, so the two results agree entry by entry; no finiteness of the input is used.

  The frames of the two kernel programs are the generated ones. The reference's run (its result array as one function of
  its argument) and the kernel program's value run (its result array, image by image, as what the body stores) are proved
  in their own modules; `Bridge.result_eq` joins the two functions. The idealization rewrote nothing, so `preserves` is trivial.
-/
import proofs.«157411_j11484742549760_2_alg».proof.Defs
import proofs.«157411_j11484742549760_2_alg».proof.Proof.Gen.Kernel
import proofs.«157411_j11484742549760_2_alg».proof.Proof.Gen.Kernel.Frame
import proofs.«157411_j11484742549760_2_alg».proof.Proof.Gen.KernelIdeal
import proofs.«157411_j11484742549760_2_alg».proof.Proof.Gen.KernelIdeal.Frame
import proofs.«157411_j11484742549760_2_alg».proof.Proof.Gen.ReferenceIdeal
import proofs.«157411_j11484742549760_2_alg».proof.Proof.Gen.Pre_finite_inputs
import proofs.«157411_j11484742549760_2_alg».proof.Proof.KRun
import proofs.«157411_j11484742549760_2_alg».proof.Proof.RefRun
import proofs.«157411_j11484742549760_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- From memories agreeing on the argument, both programs end with the one result array. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run m' ρ')
  rw [hagree c]
  exact (Cert.Bridge.result_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
